-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v6_0)) (v1 : (c : Dev Cert.KernelIdeal.nD) → Buf (Elt Ideal) ((c.tc : Thread Cert.KernelIdeal.nD Cert.KernelIdeal.τ).loc Cert.KernelIdeal.main_v6_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6_0) = v0 c
          ∧ r.2.mem ((c.tc : Thread Cert.KernelIdeal.nD Cert.KernelIdeal.τ).loc Cert.KernelIdeal.main_v6_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v36) = v0 c
          ∧ r.2.mem ((c.tc : Thread Cert.ReferenceIdeal.nD Cert.ReferenceIdeal.τ).loc Cert.ReferenceIdeal.main_v34) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x1024 : Shape := ⟨2, ![4096, 1024]⟩
abbrev S1024x1024 : Shape := ⟨2, ![1024, 1024]⟩
abbrev S1024 : Shape := ⟨1, ![1024]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn_part4 {F : FTy → Type} [FloatOps F] (main_arg14 : FVec F S1024 .f32) (main_v63 : IVec S_ 1) (main_v67 : IVec S_ 1) : IVec S_ 1 :=
  let main_v68 : IVec S_ 1 := andi main_v63 main_v67
  let main_v69 : FVec F S1024 .f32 := Host.absf main_arg14
  let main_cst_26 : FVec F S_ .f32 := constant S_ .f32 0x7F800000#32
  let main_v70 : FVec F S1024 .f32 := broadcastInDim S1024 ![] bcast_S_S1024 main_cst_26
  let main_v71 : IVec S1024 1 := cmpf .olt main_v69 main_v70
  let main_c_27 : IVec S_ 1 := constantI S_ 1 1#1
  let main_v72 : IVec S_ 1 := (fun x v => Host.reduce IntOp.andi x v reducesTo_S1024_S_d0 h_S_) main_v71 main_c_27
  let main_v73 : IVec S_ 1 := andi main_v68 main_v72
  main_v73

def fn_part3 {F : FTy → Type} [FloatOps F] (main_arg11 : FVec F S1024 .f32) (main_arg12 : FVec F S1024x1024 .f32) (main_arg13 : FVec F S1024x1024 .f32) (main_arg14 : FVec F S1024 .f32) (main_v48 : IVec S_ 1) (main_v49 : FVec F S1024x1024 .f32) (main_v50 : FVec F S1024x1024 .f32) : IVec S_ 1 :=
  let main_v51 : IVec S1024x1024 1 := cmpf .olt main_v49 main_v50
  let main_c_19 : IVec S_ 1 := constantI S_ 1 1#1
  let main_v52 : IVec S_ 1 := (fun x v => Host.reduce IntOp.andi x v reducesTo_S1024x1024_S_d0_1 h_S_) main_v51 main_c_19
  let main_v53 : IVec S_ 1 := andi main_v48 main_v52
  let main_v54 : FVec F S1024 .f32 := Host.absf main_arg11
  let main_cst_20 : FVec F S_ .f32 := constant S_ .f32 0x7F800000#32
  let main_v55 : FVec F S1024 .f32 := broadcastInDim S1024 ![] bcast_S_S1024 main_cst_20
  let main_v56 : IVec S1024 1 := cmpf .olt main_v54 main_v55
  let main_c_21 : IVec S_ 1 := constantI S_ 1 1#1
  let main_v57 : IVec S_ 1 := (fun x v => Host.reduce IntOp.andi x v reducesTo_S1024_S_d0 h_S_) main_v56 main_c_21
  let main_v58 : IVec S_ 1 := andi main_v53 main_v57
  let main_v59 : FVec F S1024x1024 .f32 := Host.absf main_arg12
  let main_cst_22 : FVec F S_ .f32 := constant S_ .f32 0x7F800000#32
  let main_v60 : FVec F S1024x1024 .f32 := broadcastInDim S1024x1024 ![] bcast_S_S1024x1024 main_cst_22
  let main_v61 : IVec S1024x1024 1 := cmpf .olt main_v59 main_v60
  let main_c_23 : IVec S_ 1 := constantI S_ 1 1#1
  let main_v62 : IVec S_ 1 := (fun x v => Host.reduce IntOp.andi x v reducesTo_S1024x1024_S_d0_1 h_S_) main_v61 main_c_23
  let main_v63 : IVec S_ 1 := andi main_v58 main_v62
  let main_v64 : FVec F S1024x1024 .f32 := Host.absf main_arg13
  let main_cst_24 : FVec F S_ .f32 := constant S_ .f32 0x7F800000#32
  let main_v65 : FVec F S1024x1024 .f32 := broadcastInDim S1024x1024 ![] bcast_S_S1024x1024 main_cst_24
  let main_v66 : IVec S1024x1024 1 := cmpf .olt main_v64 main_v65
  let main_c_25 : IVec S_ 1 := constantI S_ 1 1#1
  let main_v67 : IVec S_ 1 := (fun x v => Host.reduce IntOp.andi x v reducesTo_S1024x1024_S_d0_1 h_S_) main_v66 main_c_25
  fn_part4 (F := F) main_arg14 main_v63 main_v67

def fn_part2 {F : FTy → Type} [FloatOps F] (main_arg7 : FVec F S1024x1024 .f32) (main_arg8 : FVec F S1024 .f32) (main_arg9 : FVec F S1024x1024 .f32) (main_arg10 : FVec F S1024x1024 .f32) (main_arg11 : FVec F S1024 .f32) (main_arg12 : FVec F S1024x1024 .f32) (main_arg13 : FVec F S1024x1024 .f32) (main_arg14 : FVec F S1024 .f32) (main_v33 : IVec S_ 1) : IVec S_ 1 :=
  let main_v34 : FVec F S1024x1024 .f32 := Host.absf main_arg7
  let main_cst_12 : FVec F S_ .f32 := constant S_ .f32 0x7F800000#32
  let main_v35 : FVec F S1024x1024 .f32 := broadcastInDim S1024x1024 ![] bcast_S_S1024x1024 main_cst_12
  let main_v36 : IVec S1024x1024 1 := cmpf .olt main_v34 main_v35
  let main_c_13 : IVec S_ 1 := constantI S_ 1 1#1
  let main_v37 : IVec S_ 1 := (fun x v => Host.reduce IntOp.andi x v reducesTo_S1024x1024_S_d0_1 h_S_) main_v36 main_c_13
  let main_v38 : IVec S_ 1 := andi main_v33 main_v37
  let main_v39 : FVec F S1024 .f32 := Host.absf main_arg8
  let main_cst_14 : FVec F S_ .f32 := constant S_ .f32 0x7F800000#32
  let main_v40 : FVec F S1024 .f32 := broadcastInDim S1024 ![] bcast_S_S1024 main_cst_14
  let main_v41 : IVec S1024 1 := cmpf .olt main_v39 main_v40
  let main_c_15 : IVec S_ 1 := constantI S_ 1 1#1
  let main_v42 : IVec S_ 1 := (fun x v => Host.reduce IntOp.andi x v reducesTo_S1024_S_d0 h_S_) main_v41 main_c_15
  let main_v43 : IVec S_ 1 := andi main_v38 main_v42
  let main_v44 : FVec F S1024x1024 .f32 := Host.absf main_arg9
  let main_cst_16 : FVec F S_ .f32 := constant S_ .f32 0x7F800000#32
  let main_v45 : FVec F S1024x1024 .f32 := broadcastInDim S1024x1024 ![] bcast_S_S1024x1024 main_cst_16
  let main_v46 : IVec S1024x1024 1 := cmpf .olt main_v44 main_v45
  let main_c_17 : IVec S_ 1 := constantI S_ 1 1#1
  let main_v47 : IVec S_ 1 := (fun x v => Host.reduce IntOp.andi x v reducesTo_S1024x1024_S_d0_1 h_S_) main_v46 main_c_17
  let main_v48 : IVec S_ 1 := andi main_v43 main_v47
  let main_v49 : FVec F S1024x1024 .f32 := Host.absf main_arg10
  let main_cst_18 : FVec F S_ .f32 := constant S_ .f32 0x7F800000#32
  let main_v50 : FVec F S1024x1024 .f32 := broadcastInDim S1024x1024 ![] bcast_S_S1024x1024 main_cst_18
  fn_part3 (F := F) main_arg11 main_arg12 main_arg13 main_arg14 main_v48 main_v49 main_v50

def fn_part1 {F : FTy → Type} [FloatOps F] (main_arg4 : FVec F S1024x1024 .f32) (main_arg5 : FVec F S1024 .f32) (main_arg6 : FVec F S1024x1024 .f32) (main_arg7 : FVec F S1024x1024 .f32) (main_arg8 : FVec F S1024 .f32) (main_arg9 : FVec F S1024x1024 .f32) (main_arg10 : FVec F S1024x1024 .f32) (main_arg11 : FVec F S1024 .f32) (main_arg12 : FVec F S1024x1024 .f32) (main_arg13 : FVec F S1024x1024 .f32) (main_arg14 : FVec F S1024 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S1024x1024 .f32 := Host.absf main_arg4
  let main_cst_6 : FVec F S_ .f32 := constant S_ .f32 0x7F800000#32
  let main_v20 : FVec F S1024x1024 .f32 := broadcastInDim S1024x1024 ![] bcast_S_S1024x1024 main_cst_6
  let main_v21 : IVec S1024x1024 1 := cmpf .olt main_v19 main_v20
  let main_c_7 : IVec S_ 1 := constantI S_ 1 1#1
  let main_v22 : IVec S_ 1 := (fun x v => Host.reduce IntOp.andi x v reducesTo_S1024x1024_S_d0_1 h_S_) main_v21 main_c_7
  let main_v23 : IVec S_ 1 := andi main_v18 main_v22
  let main_v24 : FVec F S1024 .f32 := Host.absf main_arg5
  let main_cst_8 : FVec F S_ .f32 := constant S_ .f32 0x7F800000#32
  let main_v25 : FVec F S1024 .f32 := broadcastInDim S1024 ![] bcast_S_S1024 main_cst_8
  let main_v26 : IVec S1024 1 := cmpf .olt main_v24 main_v25
  let main_c_9 : IVec S_ 1 := constantI S_ 1 1#1
  let main_v27 : IVec S_ 1 := (fun x v => Host.reduce IntOp.andi x v reducesTo_S1024_S_d0 h_S_) main_v26 main_c_9
  let main_v28 : IVec S_ 1 := andi main_v23 main_v27
  let main_v29 : FVec F S1024x1024 .f32 := Host.absf main_arg6
  let main_cst_10 : FVec F S_ .f32 := constant S_ .f32 0x7F800000#32
  let main_v30 : FVec F S1024x1024 .f32 := broadcastInDim S1024x1024 ![] bcast_S_S1024x1024 main_cst_10
  let main_v31 : IVec S1024x1024 1 := cmpf .olt main_v29 main_v30
  let main_c_11 : IVec S_ 1 := constantI S_ 1 1#1
  let main_v32 : IVec S_ 1 := (fun x v => Host.reduce IntOp.andi x v reducesTo_S1024x1024_S_d0_1 h_S_) main_v31 main_c_11
  let main_v33 : IVec S_ 1 := andi main_v28 main_v32
  fn_part2 (F := F) main_arg7 main_arg8 main_arg9 main_arg10 main_arg11 main_arg12 main_arg13 main_arg14 main_v33

def fn {F : FTy → Type} [FloatOps F] (main_arg0 : FVec F S4096x1024 .f32) (main_arg1 : FVec F S4096x1024 .f32) (main_arg2 : FVec F S4096x1024 .f32) (main_arg3 : FVec F S1024x1024 .f32) (main_arg4 : FVec F S1024x1024 .f32) (main_arg5 : FVec F S1024 .f32) (main_arg6 : FVec F S1024x1024 .f32) (main_arg7 : FVec F S1024x1024 .f32) (main_arg8 : FVec F S1024 .f32) (main_arg9 : FVec F S1024x1024 .f32) (main_arg10 : FVec F S1024x1024 .f32) (main_arg11 : FVec F S1024 .f32) (main_arg12 : FVec F S1024x1024 .f32) (main_arg13 : FVec F S1024x1024 .f32) (main_arg14 : FVec F S1024 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S4096x1024 .f32 := Host.absf main_arg1
  let main_cst_0 : FVec F S_ .f32 := constant S_ .f32 0x7F800000#32
  let main_v5 : FVec F S4096x1024 .f32 := broadcastInDim S4096x1024 ![] bcast_S_S4096x1024 main_cst_0
  let main_v6 : IVec S4096x1024 1 := cmpf .olt main_v4 main_v5
  let main_c_1 : IVec S_ 1 := constantI S_ 1 1#1
  let main_v7 : IVec S_ 1 := (fun x v => Host.reduce IntOp.andi x v reducesTo_S4096x1024_S_d0_1 h_S_) main_v6 main_c_1
  let main_v8 : IVec S_ 1 := andi main_v3 main_v7
  let main_v9 : FVec F S4096x1024 .f32 := Host.absf main_arg2
  let main_cst_2 : FVec F S_ .f32 := constant S_ .f32 0x7F800000#32
  let main_v10 : FVec F S4096x1024 .f32 := broadcastInDim S4096x1024 ![] bcast_S_S4096x1024 main_cst_2
  let main_v11 : IVec S4096x1024 1 := cmpf .olt main_v9 main_v10
  let main_c_3 : IVec S_ 1 := constantI S_ 1 1#1
  let main_v12 : IVec S_ 1 := (fun x v => Host.reduce IntOp.andi x v reducesTo_S4096x1024_S_d0_1 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg4 main_arg5 main_arg6 main_arg7 main_arg8 main_arg9 main_arg10 main_arg11 main_arg12 main_arg13 main_arg14 main_v13 main_v16
-- ==== Kernel.lean ====
abbrev S4096x1024 : Shape := ⟨2, ![4096, 1024]⟩
abbrev S1024x1024 : Shape := ⟨2, ![1024, 1024]⟩
abbrev S1024 : Shape := ⟨1, ![1024]⟩
abbrev S1024x4096 : Shape := ⟨2, ![1024, 4096]⟩
abbrev S4096 : Shape := ⟨1, ![4096]⟩
abbrev S1x4096 : Shape := ⟨2, ![1, 4096]⟩
abbrev S256x1024 : Shape := ⟨2, ![256, 1024]⟩
abbrev S256x4096 : Shape := ⟨2, ![256, 4096]⟩

abbrev nBuf : Space → Nat
  | .hbm => 23
  | .vmem => 13
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S1024x1024, .f32⟩
  | .hbm, ⟨4, _⟩ => ⟨S1024x1024, .f32⟩
  | .hbm, ⟨5, _⟩ => ⟨S1024, .f32⟩
  | .hbm, ⟨6, _⟩ => ⟨S1024x1024, .f32⟩
  | .hbm, ⟨7, _⟩ => ⟨S1024x1024, .f32⟩
  | .hbm, ⟨8, _⟩ => ⟨S1024, .f32⟩
  | .hbm, ⟨9, _⟩ => ⟨S1024x1024, .f32⟩
  | .hbm, ⟨10, _⟩ => ⟨S1024x1024, .f32⟩
  | .hbm, ⟨11, _⟩ => ⟨S1024, .f32⟩
  | .hbm, ⟨12, _⟩ => ⟨S1024x1024, .f32⟩
  | .hbm, ⟨13, _⟩ => ⟨S1024x1024, .f32⟩
  | .hbm, ⟨14, _⟩ => ⟨S1024, .f32⟩
  | .hbm, ⟨15, _⟩ => ⟨S1024x4096, .f32⟩
  | .hbm, ⟨16, _⟩ => ⟨S1024x4096, .bf16⟩
  | .hbm, ⟨17, _⟩ => ⟨S1024x4096, .f32⟩
  | .hbm, ⟨18, _⟩ => ⟨S1024x4096, .bf16⟩
  | .hbm, ⟨19, _⟩ => ⟨S4096, .f32⟩
  | .hbm, ⟨20, _⟩ => ⟨S1x4096, .f32⟩
  | .hbm, ⟨21, _⟩ => ⟨S4096x1024, .f32⟩
  | .hbm, ⟨22, _⟩ => ⟨S4096x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S1024x4096, .bf16⟩
  | .local _ .vmem, ⟨7, _⟩ => ⟨S1024x4096, .bf16⟩
  | .local _ .vmem, ⟨8, _⟩ => ⟨S1x4096, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6_0 : Ref sig .tc := ⟨.hbm, 21, rfl⟩
abbrev main_v6_1 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x4096 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x4096 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x4096 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  concatenates_S1024x1024_S1024x1024_S1024x1024_S1024x1024_S1024x4096_d1 : Shape.Concatenates [S1024x1024, S1024x1024, S1024x1024, S1024x1024] S1024x4096 1
  bitsLt_bf16_f32 : FTy.bits .bf16 < FTy.bits .f32
  concatenates_S1024_S1024_S1024_S1024_S4096_d0 : Shape.Concatenates [S1024, S1024, S1024, S1024] S4096 0
  shapeCasts_S4096_S1x4096 : S4096.ShapeCasts S1x4096
  inb_S256x1024_S256x1024_0_0 : ∀ a, (![0, 0] : Fin 2 → Nat) a + S256x1024.size a ≤ S256x1024.size a
  h_S256x1024 : 0 < S256x1024.numel
  inb_S1024x4096_S1024x4096_0_0 : ∀ a, (![0, 0] : Fin 2 → Nat) a + S1024x4096.size a ≤ S1024x4096.size a
  h_S1024x4096 : 0 < S1024x4096.numel
  shapeCasts_S1024x4096_S1024x4096 : S1024x4096.ShapeCasts S1024x4096
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  broadcasts_S1x4096_S256x4096 : S1x4096.Broadcasts S256x4096
  slices_S256x4096_o0_0_S256x1024 : S256x4096.Slices ![0, 0] S256x1024
  slices_S256x4096_o0_1024_S256x1024 : S256x4096.Slices ![0, 1024] S256x1024
  slices_S256x4096_o0_2048_S256x1024 : S256x4096.Slices ![0, 2048] S256x1024
  slices_S256x4096_o0_3072_S256x1024 : S256x4096.Slices ![0, 3072] S256x1024
  dot_S256x1024_S1024x4096_S256x4096_1_0_0_1_n_n_wf : DotDims.WF S256x1024 S1024x4096 S256x4096 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x1024.size a ≤ S4096x1024.size a
  hwx0_0 : ∀ i : grid0.Coords, EltTy.bits .f32 = 32 ∨ (Rect.block (s := S4096x1024) S256x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x1024.size a ≤ S4096x1024.size a
  hwx0_1 : ∀ i : grid0.Coords, EltTy.bits .f32 = 32 ∨ (Rect.block (s := S4096x1024) S256x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x1024.size a ≤ S4096x1024.size a
  hwx0_2 : ∀ i : grid0.Coords, EltTy.bits .f32 = 32 ∨ (Rect.block (s := S4096x1024) S256x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x4096.size a ≤ S1024x4096.size a
  hwx0_3 : ∀ i : grid0.Coords, EltTy.bits .bf16 = 32 ∨ (Rect.block (s := S1024x4096) S1024x4096.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1024x4096.size a ≤ S1024x4096.size a
  hwx0_4 : ∀ i : grid0.Coords, EltTy.bits .bf16 = 32 ∨ (Rect.block (s := S1024x4096) S1024x4096.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x4096.size a ≤ S1x4096.size a
  hwx0_5 : ∀ i : grid0.Coords, EltTy.bits .f32 = 32 ∨ (Rect.block (s := S1x4096) S1x4096.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S256x1024.size a ≤ S4096x1024.size a
  hwx0_6 : ∀ i : grid0.Coords, EltTy.bits .f32 = 32 ∨ (Rect.block (s := S4096x1024) S256x1024.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S256x1024.size a ≤ S4096x1024.size a
  hwx0_7 : ∀ i : grid0.Coords, EltTy.bits .f32 = 32 ∨ (Rect.block (s := S4096x1024) S256x1024.size (cc0_transform_7 i) (hinb0_7 i)).WholeWords (EltTy.packing .f32)

variable [Facts₀]

def dot_S256x1024_S1024x4096_S256x4096_1_0_0_1_n_n : DotDims S256x1024 S1024x4096 S256x4096 where
  lhsContracting := [1]
  rhsContracting := [0]
  lhsNonContracting := [0]
  rhsNonContracting := [1]
  lhsBatch := []
  rhsBatch := []
  wf := dot_S256x1024_S1024x4096_S256x4096_1_0_0_1_n_n_wf

abbrev win0_0 : Pipeline.Window sig grid0 :=
  Pipeline.Window.ofSpec (Memref.whole main_arg0) S256x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S256x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1024x4096.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v3) S1024x4096.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v5) S1x4096.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v6_0) S256x1024.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v6_1) S256x1024.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S4096x1024 : Shape := ⟨2, ![4096, 1024]⟩
abbrev S1024x1024 : Shape := ⟨2, ![1024, 1024]⟩
abbrev S1024 : Shape := ⟨1, ![1024]⟩
abbrev S1024x4096 : Shape := ⟨2, ![1024, 4096]⟩
abbrev S4096 : Shape := ⟨1, ![4096]⟩
abbrev S4096x4096 : Shape := ⟨2, ![4096, 4096]⟩
abbrev S1x4096 : Shape := ⟨2, ![1, 4096]⟩
abbrev S_ : Shape := ⟨0, ![]⟩

abbrev nBuf : Space → Nat
  | .hbm => 58
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S1024x1024, .f32⟩
  | .hbm, ⟨4, _⟩ => ⟨S1024x1024, .f32⟩
  | .hbm, ⟨5, _⟩ => ⟨S1024, .f32⟩
  | .hbm, ⟨6, _⟩ => ⟨S1024x1024, .f32⟩
  | .hbm, ⟨7, _⟩ => ⟨S1024x1024, .f32⟩
  | .hbm, ⟨8, _⟩ => ⟨S1024, .f32⟩
  | .hbm, ⟨9, _⟩ => ⟨S1024x1024, .f32⟩
  | .hbm, ⟨10, _⟩ => ⟨S1024x1024, .f32⟩
  | .hbm, ⟨11, _⟩ => ⟨S1024, .f32⟩
  | .hbm, ⟨12, _⟩ => ⟨S1024x1024, .f32⟩
  | .hbm, ⟨13, _⟩ => ⟨S1024x1024, .f32⟩
  | .hbm, ⟨14, _⟩ => ⟨S1024, .f32⟩
  | .hbm, ⟨15, _⟩ => ⟨S1024x4096, .f32⟩
  | .hbm, ⟨16, _⟩ => ⟨S1024x4096, .f32⟩
  | .hbm, ⟨17, _⟩ => ⟨S4096, .f32⟩
  | .hbm, ⟨18, _⟩ => ⟨S4096x4096, .f32⟩
  | .hbm, ⟨19, _⟩ => ⟨S4096x4096, .f32⟩
  | .hbm, ⟨20, _⟩ => ⟨S4096x4096, .f32⟩
  | .hbm, ⟨21, _⟩ => ⟨S1x4096, .f32⟩
  | .hbm, ⟨22, _⟩ => ⟨S4096x4096, .f32⟩
  | .hbm, ⟨23, _⟩ => ⟨S4096x4096, .f32⟩
  | .hbm, ⟨24, _⟩ => ⟨S4096x1024, .f32⟩
  | .hbm, ⟨25, _⟩ => ⟨S4096x1024, .f32⟩
  | .hbm, ⟨26, _⟩ => ⟨S4096x1024, .f32⟩
  | .hbm, ⟨27, _⟩ => ⟨S4096x1024, .f32⟩
  | .hbm, ⟨28, _⟩ => ⟨S4096x1024, .f32⟩
  | .hbm, ⟨29, _⟩ => ⟨S4096x1024, .f32⟩
  | .hbm, ⟨30, _⟩ => ⟨S_, .f32⟩
  | .hbm, ⟨31, _⟩ => ⟨S4096x1024, .f32⟩
  | .hbm, ⟨32, _⟩ => ⟨S4096x1024, .f32⟩
  | .hbm, ⟨33, _⟩ => ⟨S_, .f32⟩
  | .hbm, ⟨34, _⟩ => ⟨S4096x1024, .f32⟩
  | .hbm, ⟨35, _⟩ => ⟨S4096x1024, .f32⟩
  | .hbm, ⟨36, _⟩ => ⟨S4096x1024, .f32⟩
  | .hbm, ⟨37, _⟩ => ⟨S4096x1024, .f32⟩
  | .hbm, ⟨38, _⟩ => ⟨S_, .f32⟩
  | .hbm, ⟨39, _⟩ => ⟨S4096x1024, .f32⟩
  | .hbm, ⟨40, _⟩ => ⟨S4096x1024, .f32⟩
  | .hbm, ⟨41, _⟩ => ⟨S_, .f32⟩
  | .hbm, ⟨42, _⟩ => ⟨S4096x1024, .f32⟩
  | .hbm, ⟨43, _⟩ => ⟨S4096x1024, .f32⟩
  | .hbm, ⟨44, _⟩ => ⟨S4096x1024, .f32⟩
  | .hbm, ⟨45, _⟩ => ⟨S4096x1024, .f32⟩
  | .hbm, ⟨46, _⟩ => ⟨S4096x1024, .f32⟩
  | .hbm, ⟨47, _⟩ => ⟨S_, .f32⟩
  | .hbm, ⟨48, _⟩ => ⟨S4096x1024, .f32⟩
  | .hbm, ⟨49, _⟩ => ⟨S4096x1024, .f32⟩
  | .hbm, ⟨50, _⟩ => ⟨S_, .f32⟩
  | .hbm, ⟨51, _⟩ => ⟨S4096x1024, .f32⟩
  | .hbm, ⟨52, _⟩ => ⟨S4096x1024, .f32⟩
  | .hbm, ⟨53, _⟩ => ⟨S4096x1024, .f32⟩
  | .hbm, ⟨54, _⟩ => ⟨S4096x1024, .f32⟩
  | .hbm, ⟨55, _⟩ => ⟨S4096x1024, .f32⟩
  | .hbm, ⟨56, _⟩ => ⟨S4096x1024, .f32⟩
  | .hbm, ⟨57, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_cst : Ref sig .tc := ⟨.hbm, 30, rfl⟩
abbrev main_v15 : Ref sig .tc := ⟨.hbm, 31, rfl⟩
abbrev main_v16 : Ref sig .tc := ⟨.hbm, 32, rfl⟩
abbrev main_cst_0 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_cst_1 : Ref sig .tc := ⟨.hbm, 38, rfl⟩
abbrev main_v21 : Ref sig .tc := ⟨.hbm, 39, rfl⟩
abbrev main_v22 : Ref sig .tc := ⟨.hbm, 40, rfl⟩
abbrev main_cst_2 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_cst_3 : Ref sig .tc := ⟨.hbm, 47, rfl⟩
abbrev main_v28 : Ref sig .tc := ⟨.hbm, 48, rfl⟩
abbrev main_v29 : Ref sig .tc := ⟨.hbm, 49, rfl⟩
abbrev main_cst_4 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩

abbrev nD : Nat := 1
abbrev τ : Topo := Topo.v7x

variable {F : FTy → Type} [FloatOps F]

class Facts₀ : Prop where
  concatenates_S1024x1024_S1024x1024_S1024x1024_S1024x1024_S1024x4096_d1 : Shape.Concatenates [S1024x1024, S1024x1024, S1024x1024, S1024x1024] S1024x4096 1
  concatenates_S1024_S1024_S1024_S1024_S4096_d0 : Shape.Concatenates [S1024, S1024, S1024, S1024] S4096 0
  bcast_S4096_S1x4096_1 : S4096.BroadcastsInDim S1x4096 (![1] : Fin 1 → Fin S1x4096.rank)
  bcast_S1x4096_S4096x4096_0_1 : S1x4096.BroadcastsInDim S4096x4096 (![0, 1] : Fin 2 → Fin S4096x4096.rank)
  slices_S4096x4096_S4096x1024_0_0 : S4096x4096.Slices ![0, 0] S4096x1024
  slices_S4096x4096_S4096x1024_0_1024 : S4096x4096.Slices ![0, 1024] S4096x1024
  slices_S4096x4096_S4096x1024_0_2048 : S4096x4096.Slices ![0, 2048] S4096x1024
  slices_S4096x4096_S4096x1024_0_3072 : S4096x4096.Slices ![0, 3072] S4096x1024
  bcast_S_S4096x1024 : S_.BroadcastsInDim S4096x1024 (![] : Fin 0 → Fin S4096x1024.rank)
  dot_S4096x1024_S1024x4096_S4096x4096_1_0_0_1_n_n_wf : DotDims.WF S4096x1024 S1024x4096 S4096x4096 [1] [0] [0] [1] [] []

variable [Facts₀]

def dot_S4096x1024_S1024x4096_S4096x4096_1_0_0_1_n_n : DotDims S4096x1024 S1024x4096 S4096x4096 where
  lhsContracting := [1]
  rhsContracting := [0]
  lhsNonContracting := [0]
  rhsNonContracting := [1]
  lhsBatch := []
  rhsBatch := []
  wf := dot_S4096x1024_S1024x4096_S4096x4096_1_0_0_1_n_n_wf

class Facts : Prop extends Facts₀ where

variable [Facts]
-- ==== Proof.EntryBits.lean ====
/-
  What the kernel's region finds when it is entered, and what a run of the whole program gives the frame claim.

  Before the kernel is launched the program lays the four gates' input weights side by side as one 1024 by 4096
  matrix and rounds it to bf16, does the same with the hidden weights, and lays the four bias vectors end to end
  as one row of length 4096. These six host lines write six buffers of their own and no argument array, so every
  argument array is, at the region's entry, what the program was launched with. A window's block at a grid point
  is read off its array as the region finds it; an input window's staging buffer holds that block at every point,
  also at the points where the block was not fetched again because its index had not moved (the three weight
  and bias windows after the first point). At the end of a run every argument array is therefore unchanged: the
  three batch arrays because the region only reads them, the twelve weight and bias arrays because neither the
  host lines nor the region touch them.
-/
import proofs.«126626_j29686813950554_2_alg».proof.Proof.Gen.Kernel.Launch
import proofs.«126626_j29686813950554_2_alg».proof.Proof.Gen.Kernel.Skeleton
import proofs.«126626_j29686813950554_2_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Entry

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-! ## The program up to the region -/

/-- Core `c`'s buffers when the region is entered: the launch memory after the six host lines. -/
abbrev V (c : Dev nD) (b : Ref sig .tc) : Buf (Elt F) ((c : Thread nD τ).loc b) :=
  StableHlo.after hostOps0 (fun b => m (c, b)) b

/-- The host lines allocate nothing. -/
theorem hostOps0_fresh : (hostOps0 : List (HloOp τ sig (Elt F))).Forall fun op => op.fresh = ∅ := by
  simp only [List.Forall]; repeat' constructor

/-- The program is its six host lines followed by the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- None of the six host lines writes argument 0: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.nary_writes, StableHlo.unary_writes, StableHlo.reshape_writes, Finset.mem_singleton]
    repeat' apply And.intro
    all_goals exact StableHlo.devRef_ne_of_ne (by decide)))
/-- None of the six host lines writes argument 1: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.nary_writes, StableHlo.unary_writes, StableHlo.reshape_writes, Finset.mem_singleton]
    repeat' apply And.intro
    all_goals exact StableHlo.devRef_ne_of_ne (by decide)))
/-- None of the six host lines writes argument 2: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.nary_writes, StableHlo.unary_writes, StableHlo.reshape_writes, Finset.mem_singleton]
    repeat' apply And.intro
    all_goals exact StableHlo.devRef_ne_of_ne (by decide)))
/-- None of the six host lines writes argument 3: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.Forall, StableHlo.nary_writes, StableHlo.unary_writes, StableHlo.reshape_writes, Finset.mem_singleton]
    repeat' apply And.intro
    all_goals exact StableHlo.devRef_ne_of_ne (by decide)))
/-- None of the six host lines writes argument 4: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.Forall, StableHlo.nary_writes, StableHlo.unary_writes, StableHlo.reshape_writes, Finset.mem_singleton]
    repeat' apply And.intro
    all_goals exact StableHlo.devRef_ne_of_ne (by decide)))
/-- None of the six host lines writes argument 5: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.Forall, StableHlo.nary_writes, StableHlo.unary_writes, StableHlo.reshape_writes, Finset.mem_singleton]
    repeat' apply And.intro
    all_goals exact StableHlo.devRef_ne_of_ne (by decide)))
/-- None of the six host lines writes argument 6: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.Forall, StableHlo.nary_writes, StableHlo.unary_writes, StableHlo.reshape_writes, Finset.mem_singleton]
    repeat' apply And.intro
    all_goals exact StableHlo.devRef_ne_of_ne (by decide)))
/-- None of the six host lines writes argument 7: the region finds it as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.Forall, StableHlo.nary_writes, StableHlo.unary_writes, StableHlo.reshape_writes, Finset.mem_singleton]
    repeat' apply And.intro
    all_goals exact StableHlo.devRef_ne_of_ne (by decide)))
/-- None of the six host lines writes argument 8: the region finds it as launched. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.Forall, StableHlo.nary_writes, StableHlo.unary_writes, StableHlo.reshape_writes, Finset.mem_singleton]
    repeat' apply And.intro
    all_goals exact StableHlo.devRef_ne_of_ne (by decide)))
/-- None of the six host lines writes argument 9: the region finds it as launched. -/
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, List.Forall, StableHlo.nary_writes, StableHlo.unary_writes, StableHlo.reshape_writes, Finset.mem_singleton]
    repeat' apply And.intro
    all_goals exact StableHlo.devRef_ne_of_ne (by decide)))
/-- None of the six host lines writes argument 10: the region finds it as launched. -/
theorem V_main_arg10 (c : Dev nD) : V m c main_arg10 = m ((c : Thread nD τ).loc main_arg10) :=
  StableHlo.after_of_forall_not_mem (b := Proc.devRef .tc main_arg10) _ _ (List.forall_iff_forall_mem.mp (by
    simp only [hostOps0, List.Forall, StableHlo.nary_writes, StableHlo.unary_writes, StableHlo.reshape_writes, Finset.mem_singleton]
    repeat' apply And.intro
    all_goals exact StableHlo.devRef_ne_of_ne (by decide)))
/-- None of the six host lines writes argument 11: the region finds it as launched. -/
theorem V_main_arg11 (c : Dev nD) : V m c main_arg11 = m ((c : Thread nD τ).loc main_arg11) :=
  StableHlo.after_of_forall_not_mem (b := Proc.devRef .tc main_arg11) _ _ (List.forall_iff_forall_mem.mp (by
    simp only [hostOps0, List.Forall, StableHlo.nary_writes, StableHlo.unary_writes, StableHlo.reshape_writes, Finset.mem_singleton]
    repeat' apply And.intro
    all_goals exact StableHlo.devRef_ne_of_ne (by decide)))
/-- None of the six host lines writes argument 12: the region finds it as launched. -/
theorem V_main_arg12 (c : Dev nD) : V m c main_arg12 = m ((c : Thread nD τ).loc main_arg12) :=
  StableHlo.after_of_forall_not_mem (b := Proc.devRef .tc main_arg12) _ _ (List.forall_iff_forall_mem.mp (by
    simp only [hostOps0, List.Forall, StableHlo.nary_writes, StableHlo.unary_writes, StableHlo.reshape_writes, Finset.mem_singleton]
    repeat' apply And.intro
    all_goals exact StableHlo.devRef_ne_of_ne (by decide)))
/-- None of the six host lines writes argument 13: the region finds it as launched. -/
theorem V_main_arg13 (c : Dev nD) : V m c main_arg13 = m ((c : Thread nD τ).loc main_arg13) :=
  StableHlo.after_of_forall_not_mem (b := Proc.devRef .tc main_arg13) _ _ (List.forall_iff_forall_mem.mp (by
    simp only [hostOps0, List.Forall, StableHlo.nary_writes, StableHlo.unary_writes, StableHlo.reshape_writes, Finset.mem_singleton]
    repeat' apply And.intro
    all_goals exact StableHlo.devRef_ne_of_ne (by decide)))
/-- None of the six host lines writes argument 14: the region finds it as launched. -/
theorem V_main_arg14 (c : Dev nD) : V m c main_arg14 = m ((c : Thread nD τ).loc main_arg14) :=
  StableHlo.after_of_forall_not_mem (b := Proc.devRef .tc main_arg14) _ _ (List.forall_iff_forall_mem.mp (by
    simp only [hostOps0, List.Forall, StableHlo.nary_writes, StableHlo.unary_writes, StableHlo.reshape_writes, Finset.mem_singleton]
    repeat' apply And.intro
    all_goals exact StableHlo.devRef_ne_of_ne (by decide)))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, whether or not it was fetched there:
    where it was not, the block index has not moved since the point before. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, whether or not it was fetched there:
    where it was not, the block index has not moved since the point before. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, whether or not it was fetched there:
    where it was not, the block index has not moved since the point before. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, whether or not it was fetched there:
    where it was not, the block index has not moved since the point before. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, whether or not it was fetched there:
    where it was not, the block index has not moved since the point before. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, whether or not it was fetched there:
    where it was not, the block index has not moved since the point before. -/
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from a run's -/

/-- For any proof data whose arrays are the region-entry contents, a run that ends with every window's array at
    what the proof data computes and every other unscoped buffer as the region found it ends with every argument
    array as launched. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  (θ_run defs _ _).mono (fun _ h c => ⟨((h c).1 0).trans (((dats 0 c).arrAt_in 0 rfl _).trans ((hA c 0).trans (V_main_arg0 m c))),
      ((h c).1 1).trans (((dats 0 c).arrAt_in 1 rfl _).trans ((hA c 1).trans (V_main_arg1 m c))),
      ((h c).1 2).trans (((dats 0 c).arrAt_in 2 rfl _).trans ((hA c 2).trans (V_main_arg2 m c))),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c),
      ((h c).2 main_arg11 (Pipeline.mem_restRefs_of main_arg11 (by decide) (by decide))).trans (V_main_arg11 m c),
      ((h c).2 main_arg12 (Pipeline.mem_restRefs_of main_arg12 (by decide) (by decide))).trans (V_main_arg12 m c),
      ((h c).2 main_arg13 (Pipeline.mem_restRefs_of main_arg13 (by decide) (by decide))).trans (V_main_arg13 m c),
      ((h c).2 main_arg14 (Pipeline.mem_restRefs_of main_arg14 (by decide) (by decide))).trans (V_main_arg14 m c)⟩) h

end Cert.Kernel.Entry

end
-- ==== Proof.BodyBits.lean ====
/-
  The kernel at one grid point, and the run of the whole program.

  At a grid point the kernel reads its six input blocks whole (a 256-row block of the inputs, of the hidden states
  and of the cell states, the two weight matrices and the bias row), computes the new hidden and new cell blocks
  from them, and stores each whole into its output block; what an output block held before is read once and
  discarded. So after the point each input block is as it was, and each output block is one function of the six
  input blocks. Point by point this gives the run of the region, and with the host lines before it the run of
  the program: it ends, nothing faults, and every argument array ends as it was launched.
-/
import proofs.«126626_j29686813950554_2_alg».proof.Proof.EntryBits

set_option maxRecDepth 16384

noncomputable section

namespace Cert.Kernel.Body

open Cert.Kernel Cert.Kernel.Gen Cert.Kernel.Entry
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body's accesses: each buffer whole -/

abbrev rX : Rect S256x1024 := Rect.unit (s := S256x1024) ![0, 0] S256x1024.size inb_S256x1024_S256x1024_0_0
abbrev rW : Rect S1024x4096 := Rect.unit (s := S1024x4096) ![0, 0] S1024x4096.size inb_S1024x4096_S1024x4096_0_0
abbrev rB : Rect S1x4096 := Rect.unit (s := S1x4096) ![0, 0] S1x4096.size inb_S1x4096_S1x4096_0_0

/-! ## What the body leaves in each output block -/

/-- The new hidden block after the body, from the six input blocks: one store of the whole block. -/
def outH (x0 x1 x2 : Vec F S256x1024 .f32) (x3 x4 : Vec F S1024x4096 .bf16) (x5 : Vec F S1x4096 .f32) : Vec F S256x1024 .f32 :=
  View.canon [⟨rX, k0_pay3 (View.ld x0 rX) (View.ld x1 rX) (View.ld x2 rX) (View.ld x3 rW) (View.ld x4 rW) (View.ld x5 rB)⟩]

/-- The new cell block after the body. -/
def outC (x0 x1 x2 : Vec F S256x1024 .f32) (x3 x4 : Vec F S1024x4096 .bf16) (x5 : Vec F S1x4096 .f32) : Vec F S256x1024 .f32 :=
  View.canon [⟨rX, k0_pay2 (View.ld x0 rX) (View.ld x1 rX) (View.ld x2 rX) (View.ld x3 rW) (View.ld x4 rW) (View.ld x5 rB)⟩]

/-- One store of the whole block covers the block. -/
theorem coverX (p0 : Vec F S256x1024 .f32) (y : S256x1024.Idx) :
    ∃ pc ∈ ([⟨rX, p0⟩] : List (View.Piece (Elt F) S256x1024 .f32)), y ∈ pc.1.set :=
  View.cover_of_tiled [⟨rX, p0⟩] S256x1024.size (by rfl) y

/-! ## The body's triple -/

set_option maxHeartbeats 1000000 in
/-- The kernel body on whole staging buffers, the inputs' at contents `xW` and the outputs' at anything, runs to
    the continuation with the inputs' as they were and the outputs' at `outH` and `outC` of the inputs'. -/
theorem sound_kernel (c : Dev nD) (E : Set ℕ) (i : grid0.Coords)
    (arg1 : Memref sig .tc .vmem S256x1024 .f32) (harg1 : arg1.IsWhole) (arg2 : Memref sig .tc .vmem S256x1024 .f32) (harg2 : arg2.IsWhole)
    (arg3 : Memref sig .tc .vmem S256x1024 .f32) (harg3 : arg3.IsWhole) (arg4 : Memref sig .tc .vmem S1024x4096 .bf16) (harg4 : arg4.IsWhole)
    (arg5 : Memref sig .tc .vmem S1024x4096 .bf16) (harg5 : arg5.IsWhole) (arg6 : Memref sig .tc .vmem S1x4096 .f32) (harg6 : arg6.IsWhole)
    (arg7 : Memref sig .tc .vmem S256x1024 .f32) (harg7 : arg7.IsWhole) (arg8 : Memref sig .tc .vmem S256x1024 .f32) (harg8 : arg8.IsWhole)
    (x0 x1 x2 : Vec F S256x1024 .f32) (x3 x4 : Vec F S1024x4096 .bf16) (x5 : Vec F S1x4096 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ (∃ d, owns (c : Thread nD τ) arg7 fullShare d) ∗ (∃ d, owns (c : Thread nD τ) arg8 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare (outH x0 x1 x2 x3 x4 x5) ∗ owns (c : Thread nD τ) arg8 fullShare (outC x0 x1 x2 x3 x4 x5)) -∗ K ⟨⟩))
      ⊢ wp frame (wpE (defs₀ (F := F)) Variants.none c none) E (cc0__lstm_kernel i arg1 harg1 arg2 harg2 arg3 harg3 arg4 harg4 arg5 harg5 arg6 harg6 arg7 harg7 arg8 harg8) K := by
  simp only [cc0__lstm_kernel_eq_skeleton]; unfold cc0__lstm_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    exact View.read_writes_eq_canon _ _ _ (coverX _)
  iexists _; isplitr
  swap; · iexact H7
  ipureintro
  exact View.read_writes_eq_canon _ _ _ (coverX _)

/-! ## The proof data of the region -/

/-- On core `c`: the arrays as the region finds them; after the body at point `t` each input's buffer at its block
    and each output's at `outH` / `outC` of the input blocks; the invariant the scoped rest and the generator
    register, untouched; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => outH (iblk m c 0 t) (iblk m c 1 t) (iblk m c 2 t) (iblk m c 3 t) (iblk m c 4 t) (iblk m c 5 t)
    | ⟨7, _⟩ => outC (iblk m c 0 t) (iblk m c 1 t) (iblk m c 2 t) (iblk m c 3 t) (iblk m c 4 t) (iblk m c 5 t)
  Φ _ := Pipeline.ΦA spec0 c
  q _ := fullShare
  owed _ := 0

/-- The proof data's arrays are the region-entry contents. -/
theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = outH (iblk m c 0 t) (iblk m c 1 t) (iblk m c 2 t) (iblk m c 3 t) (iblk m c 4 t) (iblk m c 5 t) := by dsimp only [dats]
theorem after0_7 (c : Dev nD) (t : Fin cfg0.N) : (dats m 0 c).after 7 t = outC (iblk m c 0 t) (iblk m c 1 t) (iblk m c 2 t) (iblk m c 3 t) (iblk m c 4 t) (iblk m c 5 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

/-! ## The body obligation, at a generic point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t))

/-- The body at any point: the inputs' buffers hold their blocks, so `sound_kernel` applies; the invariant and the
    core's debt pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel c Set.univ (grid0.coords t) _ _ _ _ _ _ _ _ _ _ _ _ _ _ _ _ (iblk m c 0 t) (iblk m c 1 t) (iblk m c 2 t) (iblk m c 3 t) (iblk m c 4 t) (iblk m c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The body obligation of the region, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any memory with zero counters every weakly fair execution of the program terminates, and every final state
    has every window's array at what the proof data computes and every other unscoped buffer as the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The program runs to the end, faults nowhere, and leaves every argument array as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  frame_of m ρ (dats m) (A_eq m) (run_main m ρ)

end Cert.Kernel.Body

end
-- ==== Proof.EntryIdeal.lean ====
/-
  What the kernel's region finds when it is entered, and what a run of the whole program gives the frame claim.

  Before the kernel is launched the program lays the four gates' input weights side by side as one 1024 by 4096
  matrix and rounds it to bf16, does the same with the hidden weights, and lays the four bias vectors end to end
  as one row of length 4096. These six host lines write six buffers of their own and no argument array, so every
  argument array is, at the region's entry, what the program was launched with. A window's block at a grid point
  is read off its array as the region finds it; an input window's staging buffer holds that block at every point,
  also at the points where the block was not fetched again because its index had not moved (the three weight
  and bias windows after the first point). At the end of a run every argument array is therefore unchanged: the
  three batch arrays because the region only reads them, the twelve weight and bias arrays because neither the
  host lines nor the region touch them.
-/
import proofs.«126626_j29686813950554_2_alg».proof.Proof.Gen.KernelIdeal.Launch
import proofs.«126626_j29686813950554_2_alg».proof.Proof.Gen.KernelIdeal.Skeleton
import proofs.«126626_j29686813950554_2_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Entry

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-! ## The program up to the region -/

/-- Core `c`'s buffers when the region is entered: the launch memory after the six host lines. -/
abbrev V (c : Dev nD) (b : Ref sig .tc) : Buf (Elt F) ((c : Thread nD τ).loc b) :=
  StableHlo.after hostOps0 (fun b => m (c, b)) b

/-- The host lines allocate nothing. -/
theorem hostOps0_fresh : (hostOps0 : List (HloOp τ sig (Elt F))).Forall fun op => op.fresh = ∅ := by
  simp only [List.Forall]; repeat' constructor

/-- The program is its six host lines followed by the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- None of the six host lines writes argument 0: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.nary_writes, StableHlo.unary_writes, StableHlo.reshape_writes, Finset.mem_singleton]
    repeat' apply And.intro
    all_goals exact StableHlo.devRef_ne_of_ne (by decide)))
/-- None of the six host lines writes argument 1: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.nary_writes, StableHlo.unary_writes, StableHlo.reshape_writes, Finset.mem_singleton]
    repeat' apply And.intro
    all_goals exact StableHlo.devRef_ne_of_ne (by decide)))
/-- None of the six host lines writes argument 2: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.nary_writes, StableHlo.unary_writes, StableHlo.reshape_writes, Finset.mem_singleton]
    repeat' apply And.intro
    all_goals exact StableHlo.devRef_ne_of_ne (by decide)))
/-- None of the six host lines writes argument 3: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.Forall, StableHlo.nary_writes, StableHlo.unary_writes, StableHlo.reshape_writes, Finset.mem_singleton]
    repeat' apply And.intro
    all_goals exact StableHlo.devRef_ne_of_ne (by decide)))
/-- None of the six host lines writes argument 4: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.Forall, StableHlo.nary_writes, StableHlo.unary_writes, StableHlo.reshape_writes, Finset.mem_singleton]
    repeat' apply And.intro
    all_goals exact StableHlo.devRef_ne_of_ne (by decide)))
/-- None of the six host lines writes argument 5: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.Forall, StableHlo.nary_writes, StableHlo.unary_writes, StableHlo.reshape_writes, Finset.mem_singleton]
    repeat' apply And.intro
    all_goals exact StableHlo.devRef_ne_of_ne (by decide)))
/-- None of the six host lines writes argument 6: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.Forall, StableHlo.nary_writes, StableHlo.unary_writes, StableHlo.reshape_writes, Finset.mem_singleton]
    repeat' apply And.intro
    all_goals exact StableHlo.devRef_ne_of_ne (by decide)))
/-- None of the six host lines writes argument 7: the region finds it as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.Forall, StableHlo.nary_writes, StableHlo.unary_writes, StableHlo.reshape_writes, Finset.mem_singleton]
    repeat' apply And.intro
    all_goals exact StableHlo.devRef_ne_of_ne (by decide)))
/-- None of the six host lines writes argument 8: the region finds it as launched. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.Forall, StableHlo.nary_writes, StableHlo.unary_writes, StableHlo.reshape_writes, Finset.mem_singleton]
    repeat' apply And.intro
    all_goals exact StableHlo.devRef_ne_of_ne (by decide)))
/-- None of the six host lines writes argument 9: the region finds it as launched. -/
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, List.Forall, StableHlo.nary_writes, StableHlo.unary_writes, StableHlo.reshape_writes, Finset.mem_singleton]
    repeat' apply And.intro
    all_goals exact StableHlo.devRef_ne_of_ne (by decide)))
/-- None of the six host lines writes argument 10: the region finds it as launched. -/
theorem V_main_arg10 (c : Dev nD) : V m c main_arg10 = m ((c : Thread nD τ).loc main_arg10) :=
  StableHlo.after_of_forall_not_mem (b := Proc.devRef .tc main_arg10) _ _ (List.forall_iff_forall_mem.mp (by
    simp only [hostOps0, List.Forall, StableHlo.nary_writes, StableHlo.unary_writes, StableHlo.reshape_writes, Finset.mem_singleton]
    repeat' apply And.intro
    all_goals exact StableHlo.devRef_ne_of_ne (by decide)))
/-- None of the six host lines writes argument 11: the region finds it as launched. -/
theorem V_main_arg11 (c : Dev nD) : V m c main_arg11 = m ((c : Thread nD τ).loc main_arg11) :=
  StableHlo.after_of_forall_not_mem (b := Proc.devRef .tc main_arg11) _ _ (List.forall_iff_forall_mem.mp (by
    simp only [hostOps0, List.Forall, StableHlo.nary_writes, StableHlo.unary_writes, StableHlo.reshape_writes, Finset.mem_singleton]
    repeat' apply And.intro
    all_goals exact StableHlo.devRef_ne_of_ne (by decide)))
/-- None of the six host lines writes argument 12: the region finds it as launched. -/
theorem V_main_arg12 (c : Dev nD) : V m c main_arg12 = m ((c : Thread nD τ).loc main_arg12) :=
  StableHlo.after_of_forall_not_mem (b := Proc.devRef .tc main_arg12) _ _ (List.forall_iff_forall_mem.mp (by
    simp only [hostOps0, List.Forall, StableHlo.nary_writes, StableHlo.unary_writes, StableHlo.reshape_writes, Finset.mem_singleton]
    repeat' apply And.intro
    all_goals exact StableHlo.devRef_ne_of_ne (by decide)))
/-- None of the six host lines writes argument 13: the region finds it as launched. -/
theorem V_main_arg13 (c : Dev nD) : V m c main_arg13 = m ((c : Thread nD τ).loc main_arg13) :=
  StableHlo.after_of_forall_not_mem (b := Proc.devRef .tc main_arg13) _ _ (List.forall_iff_forall_mem.mp (by
    simp only [hostOps0, List.Forall, StableHlo.nary_writes, StableHlo.unary_writes, StableHlo.reshape_writes, Finset.mem_singleton]
    repeat' apply And.intro
    all_goals exact StableHlo.devRef_ne_of_ne (by decide)))
/-- None of the six host lines writes argument 14: the region finds it as launched. -/
theorem V_main_arg14 (c : Dev nD) : V m c main_arg14 = m ((c : Thread nD τ).loc main_arg14) :=
  StableHlo.after_of_forall_not_mem (b := Proc.devRef .tc main_arg14) _ _ (List.forall_iff_forall_mem.mp (by
    simp only [hostOps0, List.Forall, StableHlo.nary_writes, StableHlo.unary_writes, StableHlo.reshape_writes, Finset.mem_singleton]
    repeat' apply And.intro
    all_goals exact StableHlo.devRef_ne_of_ne (by decide)))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, whether or not it was fetched there:
    where it was not, the block index has not moved since the point before. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, whether or not it was fetched there:
    where it was not, the block index has not moved since the point before. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, whether or not it was fetched there:
    where it was not, the block index has not moved since the point before. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, whether or not it was fetched there:
    where it was not, the block index has not moved since the point before. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, whether or not it was fetched there:
    where it was not, the block index has not moved since the point before. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, whether or not it was fetched there:
    where it was not, the block index has not moved since the point before. -/
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from a run's -/

/-- For any proof data whose arrays are the region-entry contents, a run that ends with every window's array at
    what the proof data computes and every other unscoped buffer as the region found it ends with every argument
    array as launched. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  (θ_run defs _ _).mono (fun _ h c => ⟨((h c).1 0).trans (((dats 0 c).arrAt_in 0 rfl _).trans ((hA c 0).trans (V_main_arg0 m c))),
      ((h c).1 1).trans (((dats 0 c).arrAt_in 1 rfl _).trans ((hA c 1).trans (V_main_arg1 m c))),
      ((h c).1 2).trans (((dats 0 c).arrAt_in 2 rfl _).trans ((hA c 2).trans (V_main_arg2 m c))),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c),
      ((h c).2 main_arg11 (Pipeline.mem_restRefs_of main_arg11 (by decide) (by decide))).trans (V_main_arg11 m c),
      ((h c).2 main_arg12 (Pipeline.mem_restRefs_of main_arg12 (by decide) (by decide))).trans (V_main_arg12 m c),
      ((h c).2 main_arg13 (Pipeline.mem_restRefs_of main_arg13 (by decide) (by decide))).trans (V_main_arg13 m c),
      ((h c).2 main_arg14 (Pipeline.mem_restRefs_of main_arg14 (by decide) (by decide))).trans (V_main_arg14 m c)⟩) h

end Cert.KernelIdeal.Entry

end
-- ==== Proof.BodyIdeal.lean ====
/-
  The kernel at one grid point, and the run of the whole program.

  At a grid point the kernel reads its six input blocks whole (a 256-row block of the inputs, of the hidden states
  and of the cell states, the two weight matrices and the bias row), computes the new hidden and new cell blocks
  from them, and stores each whole into its output block; what an output block held before is read once and
  discarded. So after the point each input block is as it was, and each output block is one function of the six
  input blocks. Point by point this gives the run of the region, and with the host lines before it the run of
  the program: it ends, nothing faults, and every argument array ends as it was launched.
-/
import proofs.«126626_j29686813950554_2_alg».proof.Proof.EntryIdeal

set_option maxRecDepth 16384

noncomputable section

namespace Cert.KernelIdeal.Body

open Cert.KernelIdeal Cert.KernelIdeal.Gen Cert.KernelIdeal.Entry
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body's accesses: each buffer whole -/

abbrev rX : Rect S256x1024 := Rect.unit (s := S256x1024) ![0, 0] S256x1024.size inb_S256x1024_S256x1024_0_0
abbrev rW : Rect S1024x4096 := Rect.unit (s := S1024x4096) ![0, 0] S1024x4096.size inb_S1024x4096_S1024x4096_0_0
abbrev rB : Rect S1x4096 := Rect.unit (s := S1x4096) ![0, 0] S1x4096.size inb_S1x4096_S1x4096_0_0

/-! ## What the body leaves in each output block -/

/-- The new hidden block after the body, from the six input blocks: one store of the whole block. -/
def outH (x0 x1 x2 : Vec F S256x1024 .f32) (x3 x4 : Vec F S1024x4096 .bf16) (x5 : Vec F S1x4096 .f32) : Vec F S256x1024 .f32 :=
  View.canon [⟨rX, k0_pay3 (View.ld x0 rX) (View.ld x1 rX) (View.ld x2 rX) (View.ld x3 rW) (View.ld x4 rW) (View.ld x5 rB)⟩]

/-- The new cell block after the body. -/
def outC (x0 x1 x2 : Vec F S256x1024 .f32) (x3 x4 : Vec F S1024x4096 .bf16) (x5 : Vec F S1x4096 .f32) : Vec F S256x1024 .f32 :=
  View.canon [⟨rX, k0_pay2 (View.ld x0 rX) (View.ld x1 rX) (View.ld x2 rX) (View.ld x3 rW) (View.ld x4 rW) (View.ld x5 rB)⟩]

/-- One store of the whole block covers the block. -/
theorem coverX (p0 : Vec F S256x1024 .f32) (y : S256x1024.Idx) :
    ∃ pc ∈ ([⟨rX, p0⟩] : List (View.Piece (Elt F) S256x1024 .f32)), y ∈ pc.1.set :=
  View.cover_of_tiled [⟨rX, p0⟩] S256x1024.size (by rfl) y

/-! ## The body's triple -/

set_option maxHeartbeats 1000000 in
/-- The kernel body on whole staging buffers, the inputs' at contents `xW` and the outputs' at anything, runs to
    the continuation with the inputs' as they were and the outputs' at `outH` and `outC` of the inputs'. -/
theorem sound_kernel (c : Dev nD) (E : Set ℕ) (i : grid0.Coords)
    (arg1 : Memref sig .tc .vmem S256x1024 .f32) (harg1 : arg1.IsWhole) (arg2 : Memref sig .tc .vmem S256x1024 .f32) (harg2 : arg2.IsWhole)
    (arg3 : Memref sig .tc .vmem S256x1024 .f32) (harg3 : arg3.IsWhole) (arg4 : Memref sig .tc .vmem S1024x4096 .bf16) (harg4 : arg4.IsWhole)
    (arg5 : Memref sig .tc .vmem S1024x4096 .bf16) (harg5 : arg5.IsWhole) (arg6 : Memref sig .tc .vmem S1x4096 .f32) (harg6 : arg6.IsWhole)
    (arg7 : Memref sig .tc .vmem S256x1024 .f32) (harg7 : arg7.IsWhole) (arg8 : Memref sig .tc .vmem S256x1024 .f32) (harg8 : arg8.IsWhole)
    (x0 x1 x2 : Vec F S256x1024 .f32) (x3 x4 : Vec F S1024x4096 .bf16) (x5 : Vec F S1x4096 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ (∃ d, owns (c : Thread nD τ) arg7 fullShare d) ∗ (∃ d, owns (c : Thread nD τ) arg8 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare (outH x0 x1 x2 x3 x4 x5) ∗ owns (c : Thread nD τ) arg8 fullShare (outC x0 x1 x2 x3 x4 x5)) -∗ K ⟨⟩))
      ⊢ wp frame (wpE (defs₀ (F := F)) Variants.none c none) E (cc0__lstm_kernel i arg1 harg1 arg2 harg2 arg3 harg3 arg4 harg4 arg5 harg5 arg6 harg6 arg7 harg7 arg8 harg8) K := by
  simp only [cc0__lstm_kernel_eq_skeleton]; unfold cc0__lstm_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    exact View.read_writes_eq_canon _ _ _ (coverX _)
  iexists _; isplitr
  swap; · iexact H7
  ipureintro
  exact View.read_writes_eq_canon _ _ _ (coverX _)

/-! ## The proof data of the region -/

/-- On core `c`: the arrays as the region finds them; after the body at point `t` each input's buffer at its block
    and each output's at `outH` / `outC` of the input blocks; the invariant the scoped rest and the generator
    register, untouched; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => outH (iblk m c 0 t) (iblk m c 1 t) (iblk m c 2 t) (iblk m c 3 t) (iblk m c 4 t) (iblk m c 5 t)
    | ⟨7, _⟩ => outC (iblk m c 0 t) (iblk m c 1 t) (iblk m c 2 t) (iblk m c 3 t) (iblk m c 4 t) (iblk m c 5 t)
  Φ _ := Pipeline.ΦA spec0 c
  q _ := fullShare
  owed _ := 0

/-- The proof data's arrays are the region-entry contents. -/
theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = outH (iblk m c 0 t) (iblk m c 1 t) (iblk m c 2 t) (iblk m c 3 t) (iblk m c 4 t) (iblk m c 5 t) := by dsimp only [dats]
theorem after0_7 (c : Dev nD) (t : Fin cfg0.N) : (dats m 0 c).after 7 t = outC (iblk m c 0 t) (iblk m c 1 t) (iblk m c 2 t) (iblk m c 3 t) (iblk m c 4 t) (iblk m c 5 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

/-! ## The body obligation, at a generic point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t))

/-- The body at any point: the inputs' buffers hold their blocks, so `sound_kernel` applies; the invariant and the
    core's debt pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel c Set.univ (grid0.coords t) _ _ _ _ _ _ _ _ _ _ _ _ _ _ _ _ (iblk m c 0 t) (iblk m c 1 t) (iblk m c 2 t) (iblk m c 3 t) (iblk m c 4 t) (iblk m c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The body obligation of the region, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any memory with zero counters every weakly fair execution of the program terminates, and every final state
    has every window's array at what the proof data computes and every other unscoped buffer as the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The program runs to the end, faults nowhere, and leaves every argument array as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  frame_of m ρ (dats m) (A_eq m) (run_main m ρ)

end Cert.KernelIdeal.Body

end
-- ==== Proof.EntryValues.lean ====
/-
  What the three arrays the host lines write hold when the region is entered, in exact arithmetic.

  Before the kernel is launched the program lays the four gates' input weights side by side as one 1024 by 4096
  matrix and rounds it to bf16; in exact arithmetic the rounding is the identity, so the region finds the
  side-by-side matrix itself. The same holds for the hidden weights. The four bias vectors are laid end to end as
  one vector of length 4096, and that vector is recast as one row; the row's entry at column j is the vector's
  entry at j.
-/
import proofs.«126626_j29686813950554_2_alg».proof.Proof.EntryIdeal
import Idealize.ShloMosaic.Lib.ValueIdx
import Idealize.ShloMosaic.Lib.ValueLayout
import Idealize.ShloMosaic.Lib.StableHlo.Run

set_option maxRecDepth 16384

noncomputable section

namespace Cert.KernelIdeal.EntryValues

open Cert.KernelIdeal Cert.KernelIdeal.Gen Cert.KernelIdeal.Entry Idealize.ShloMosaic Idealize.ShloMosaic.ValueIdx

variable (m : (ℓ : Loc nD τ sig) → Buf (Elt Ideal) ℓ) (c : Dev nD)

/-- The four gates' input weights side by side: a 1024 by 4096 matrix. -/
def Wx : FVec Ideal S1024x4096 .f32 :=
  concatenate S1024x4096 1 [⟨S1024x1024, m ((c.tc : Thread nD τ).loc main_arg6)⟩, ⟨S1024x1024, m ((c.tc : Thread nD τ).loc main_arg3)⟩,
    ⟨S1024x1024, m ((c.tc : Thread nD τ).loc main_arg9)⟩, ⟨S1024x1024, m ((c.tc : Thread nD τ).loc main_arg12)⟩]
    Facts₀.concatenates_S1024x1024_S1024x1024_S1024x1024_S1024x1024_S1024x4096_d1

/-- The four gates' hidden weights side by side: a 1024 by 4096 matrix. -/
def Wh : FVec Ideal S1024x4096 .f32 :=
  concatenate S1024x4096 1 [⟨S1024x1024, m ((c.tc : Thread nD τ).loc main_arg7)⟩, ⟨S1024x1024, m ((c.tc : Thread nD τ).loc main_arg4)⟩,
    ⟨S1024x1024, m ((c.tc : Thread nD τ).loc main_arg10)⟩, ⟨S1024x1024, m ((c.tc : Thread nD τ).loc main_arg13)⟩]
    Facts₀.concatenates_S1024x1024_S1024x1024_S1024x1024_S1024x1024_S1024x4096_d1

/-- The four gates' bias vectors end to end: a vector of length 4096. -/
def Bv : FVec Ideal S4096 .f32 :=
  concatenate S4096 0 [⟨S1024, m ((c.tc : Thread nD τ).loc main_arg8)⟩, ⟨S1024, m ((c.tc : Thread nD τ).loc main_arg5)⟩,
    ⟨S1024, m ((c.tc : Thread nD τ).loc main_arg11)⟩, ⟨S1024, m ((c.tc : Thread nD τ).loc main_arg14)⟩]
    Facts₀.concatenates_S1024_S1024_S1024_S1024_S4096_d0

/-- The rounded input-weight matrix the region finds is, as a whole array, the rounding of the side-by-side matrix. -/
theorem V_main_v1_eq : (V (F := Ideal) m c main_v1 : S1024x4096.Idx → EReal) = truncf .bf16 (Wx m c) Facts₀.bitsLt_bf16_f32 := by
  dsimp only [V, hostOps0]
  after_results
  rfl

/-- The rounded hidden-weight matrix the region finds is, as a whole array, the rounding of the side-by-side matrix. -/
theorem V_main_v3_eq : (V (F := Ideal) m c main_v3 : S1024x4096.Idx → EReal) = truncf .bf16 (Wh m c) Facts₀.bitsLt_bf16_f32 := by
  dsimp only [V, hostOps0]
  after_results
  rfl

/-- The bias row the region finds is, as a whole array, the end-to-end bias vector recast as one row. -/
theorem V_main_v5_eq : (V (F := Ideal) m c main_v5 : S1x4096.Idx → EReal) = shapeCast S1x4096 (Bv m c) Facts₀.shapeCasts_S4096_S1x4096 := by
  dsimp only [V, hostOps0]
  after_results
  rfl

/-- In exact arithmetic rounding changes nothing: the region finds the side-by-side input weights, entry by entry. -/
theorem V_weights_x (k : Fin 1024) (j : Fin 4096) : V (F := Ideal) m c main_v1 (ix2 k j) = Wx m c (ix2 k j) :=
  (congrFun (V_main_v1_eq m c) (ix2 k j)).trans (truncf_apply (Wx m c) Facts₀.bitsLt_bf16_f32 (ix2 k j))

/-- In exact arithmetic rounding changes nothing: the region finds the side-by-side hidden weights, entry by entry. -/
theorem V_weights_h (k : Fin 1024) (j : Fin 4096) : V (F := Ideal) m c main_v3 (ix2 k j) = Wh m c (ix2 k j) :=
  (congrFun (V_main_v3_eq m c) (ix2 k j)).trans (truncf_apply (Wh m c) Facts₀.bitsLt_bf16_f32 (ix2 k j))

/-- The bias row's entry at column `j` is the end-to-end bias vector's entry at `j`. -/
theorem V_bias (j : Fin 4096) : V (F := Ideal) m c main_v5 (ix2 (0 : Fin 1) j) = Bv m c (ix1 j) :=
  (congrFun (V_main_v5_eq m c) (ix2 (0 : Fin 1) j)).trans (shapeCast_a_1a_apply (Bv m c) Facts₀.shapeCasts_S4096_S1x4096 (0 : Fin 1) j)

end Cert.KernelIdeal.EntryValues

end
-- ==== Proof.CellSpec.lean ====
/-
  One step of a long short-term memory cell, read one batch row at a time on the extended reals.

  For a batch row with input `xr` and previous hidden state `hr` (both of length 1024), previous cell value `c` at
  the column in question, the two weight matrices `wx`, `wh` (1024 by 4096: the forget, input, candidate and
  output gates side by side, 1024 columns each) and the bias `b` (length 4096):

  * the pre-activation of gate column `j` is `(∑ k, xr k * wx k j + ∑ k, hr k * wh k j) + b j`;
  * the new cell value at column `q` is `σ(f) * c + σ(i) * tanh(n)`, with `f`, `i`, `n` the pre-activations at
    columns `q`, `1024 + q`, `2048 + q`;
  * the new hidden value is `σ(o) * tanh(new cell)`, with `o` the pre-activation at column `3072 + q`.

  Here `σ x = 1 / (1 + e^(-x))` and `tanh` are the exact functions on the extended reals. Nothing is cancelled
  and nothing is distributed, so the definitions make sense at the infinities too.
-/
import Idealize.ShloMosaic.PureOps.Ideal

noncomputable section

open scoped BigOperators

namespace Cert.CellSpec

open Idealize.ShloMosaic

/-- The pre-activation of gate column `j` for one batch row: the row of inputs against column `j` of the input
    weights, plus the row of hidden values against column `j` of the hidden weights, plus the bias at `j`. -/
def gate (xr hr : Fin 1024 → EReal) (wx wh : Fin 1024 → Fin 4096 → EReal) (b : Fin 4096 → EReal) (j : Fin 4096) : EReal :=
  (∑ k : Fin 1024, xr k * wx k j + ∑ k : Fin 1024, hr k * wh k j) + b j

/-- The new cell value at column `q`: forget gate times the old cell value plus input gate times candidate. -/
def cellNext (xr hr : Fin 1024 → EReal) (c : EReal) (wx wh : Fin 1024 → Fin 4096 → EReal) (b : Fin 4096 → EReal)
    (q : Fin 1024) : EReal :=
  Ideal.logistic (gate xr hr wx wh b ⟨q.val, by omega⟩) * c
    + Ideal.logistic (gate xr hr wx wh b ⟨1024 + q.val, by omega⟩) * Ideal.tanh (gate xr hr wx wh b ⟨2048 + q.val, by omega⟩)

/-- The new hidden value at column `q`: output gate times the hyperbolic tangent of the new cell value. -/
def hiddenNext (xr hr : Fin 1024 → EReal) (c : EReal) (wx wh : Fin 1024 → Fin 4096 → EReal) (b : Fin 4096 → EReal)
    (q : Fin 1024) : EReal :=
  Ideal.logistic (gate xr hr wx wh b ⟨3072 + q.val, by omega⟩) * Ideal.tanh (cellNext xr hr c wx wh b q)

end Cert.CellSpec

end
-- ==== Proof.LibPlainDot.lean ====
/-
  Two general facts about finite sums, used where one program contracts a long axis in one product and another
  contracts the same axis block by block.

  * A sum over `Fin (n + n + n)` (or `Fin (n + n)`) is the sum of the sums over its consecutive blocks of
    length `n`. This holds in every commutative additive monoid, so in particular on the extended reals, where
    no cancellation or distributivity is available at the infinities and none is needed here.
  * A matrix product with plain dimension numbers (rows by `K` times `K` by columns, nothing batched), accumulated
    into the zero matrix and read at exact arithmetic, is at the entry `(p, c)` the sum over the contracted
    coordinate `a` of the left factor at `(p, a)` times the right factor at `(a, c)`.
-/
import Idealize.ShloMosaic.PureOps.Ideal.Laws
import Idealize.ShloMosaic.Lib.ValueIdx

noncomputable section

open scoped BigOperators

namespace Cert.LibPlainDot

open Idealize.ShloMosaic Idealize.ShloMosaic.ValueIdx

/-- A sum over three consecutive blocks of `n` indices is the sum of the three block sums. -/
theorem sum_three_blocks {M : Type*} [AddCommMonoid M] (n : Nat) (f : Fin (n + n + n) → M) :
    ∑ a, f a = (∑ a : Fin n, f ⟨a.val, by omega⟩ + ∑ a : Fin n, f ⟨n + a.val, by omega⟩)
      + ∑ a : Fin n, f ⟨n + n + a.val, by omega⟩ := by
  rw [Fin.sum_univ_add, Fin.sum_univ_add]
  rfl

/-- A sum over two consecutive blocks of `n` indices is the sum of the two block sums. -/
theorem sum_two_blocks {M : Type*} [AddCommMonoid M] (n : Nat) (f : Fin (n + n) → M) :
    ∑ a, f a = ∑ a : Fin n, f ⟨a.val, by omega⟩ + ∑ a : Fin n, f ⟨n + a.val, by omega⟩ := by
  rw [Fin.sum_univ_add]
  rfl

/-- The blocks of 64 inside 192 indices. -/
theorem sum_fin192 {M : Type*} [AddCommMonoid M] (f : Fin 192 → M) :
    ∑ a, f a = (∑ a : Fin 64, f ⟨a.val, by omega⟩ + ∑ a : Fin 64, f ⟨64 + a.val, by omega⟩)
      + ∑ a : Fin 64, f ⟨128 + a.val, by omega⟩ :=
  sum_three_blocks 64 f

/-- The blocks of 64 inside 128 indices. -/
theorem sum_fin128 {M : Type*} [AddCommMonoid M] (f : Fin 128 → M) :
    ∑ a, f a = ∑ a : Fin 64, f ⟨a.val, by omega⟩ + ∑ a : Fin 64, f ⟨64 + a.val, by omega⟩ :=
  sum_two_blocks 64 f

/-- A plain `R × K` by `K × C` product accumulated into the zero matrix, read at `(p, c)` in exact arithmetic:
    `∑ a, l (p, a) * r (a, c)`. The hypotheses `hl0 … hr1` say the dimension numbers are the plain ones: the left
    factor's index takes its row from the output index and its column from the contraction index, the right factor's
    its row from the contraction index and its column from the output index. -/
theorem matmul_zero_plain {R K C : Nat} {φ₁ φ₂ : FTy}
    (D : DotDims ⟨2, ![R, K]⟩ ⟨2, ![K, C]⟩ ⟨2, ![R, C]⟩) (hr : D.contr.rank = 1)
    (hs : D.contr.size ⟨0, by omega⟩ = K)
    (hl0 : ∀ i q, (D.lhsIdx i q 0).val = (i 0).val)
    (hl1 : ∀ i q, (D.lhsIdx i q 1).val = (q ⟨0, by omega⟩).val)
    (hr0 : ∀ i q, (D.rhsIdx i q 0).val = (q ⟨0, by omega⟩).val)
    (hr1 : ∀ i q, (D.rhsIdx i q 1).val = (i 1).val)
    (prec : Option ContractPrecision) (l : FVec Ideal ⟨2, ![R, K]⟩ φ₁) (r : FVec Ideal ⟨2, ![K, C]⟩ φ₂)
    (p : Fin R) (c : Fin C) :
    FloatOps.matmul D prec l r (constant ⟨2, ![R, C]⟩ .f32 0x00000000#32) (ix2 p c)
      = ∑ a : Fin K, l (ix2 p a) * r (ix2 a c) := by
  rw [Ideal.matmul_constant_zero_apply, ← Equiv.sum_comp (contrEquiv1 D K hr hs).symm]
  refine Finset.sum_congr rfl fun k _ => ?_
  have hk := contrEquiv1_symm_val D K hr hs k
  have el : D.lhsIdx (ix2 p c) ((contrEquiv1 D K hr hs).symm k) = ix2 p k := funext fun a => Fin.ext (by
    match a with
    | ⟨0, _⟩ => exact hl0 _ _
    | ⟨1, _⟩ => exact (hl1 _ _).trans hk)
  have er : D.rhsIdx (ix2 p c) ((contrEquiv1 D K hr hs).symm k) = ix2 k c := funext fun a => Fin.ext (by
    match a with
    | ⟨0, _⟩ => exact (hr0 _ _).trans hk
    | ⟨1, _⟩ => exact hr1 _ _)
  rw [el, er]

end Cert.LibPlainDot

end
-- ==== Proof.BlockValue.lean ====
/-
  One entry of the two blocks the cell kernel stores, in exact arithmetic.

  The kernel's body forms a 256 by 4096 block of gate pre-activations: the block of inputs times the input
  weights, plus the block of hidden values times the hidden weights, plus the bias row repeated over the 256 rows.
  It cuts that block into four 256 by 1024 column panels (forget, input, candidate, output), and combines them
  entry by entry: the new cell block is `σ(f) * c + σ(i) * tanh(n)` and the new hidden block is
  `σ(o) * tanh(new cell)`.

  Read at the entry `(p, q)` and at the exact instance, every step is a statement about row `p` alone:

  * narrowing to a shorter float format is the identity on the extended reals, a cast to the same shape is the
    identity, and a plain matrix product into the zero block is `∑ k, l (p, k) * r (k, j)`;
  * the repeated bias row reads the bias at column `j`;
  * a column panel at offset `o` reads the block at column `o + q`;
  * the logistic function, the hyperbolic tangent, products and sums act entry by entry.

  So the two stored values are `Cert.CellSpec.cellNext` and `Cert.CellSpec.hiddenNext` of row `p` of the
  input and hidden blocks, the old cell value at `(p, q)`, the two weight matrices and the bias. Nothing is
  cancelled, distributed or reassociated: both sides are the same expression tree, so the statements hold at the
  infinities too.
-/
import proofs.«126626_j29686813950554_2_alg».proof.Proof.Gen.KernelIdeal.Skeleton
import proofs.«126626_j29686813950554_2_alg».proof.Proof.CellSpec
import proofs.«126626_j29686813950554_2_alg».proof.Proof.LibPlainDot
import Idealize.ShloMosaic.Lib.ValueLayout

noncomputable section

open scoped BigOperators

namespace Cert.KernelIdeal.BlockValue

open Idealize.ShloMosaic Idealize.ShloMosaic.ValueIdx Cert.KernelIdeal

/-! ## The product's dimension numbers are the plain ones -/

/-- The dimension numbers of both products: 256 by 1024 times 1024 by 4096, contracting the shared axis. -/
abbrev D := dot_S256x1024_S1024x4096_S256x4096_1_0_0_1_n_n

/-- One axis is contracted … -/
theorem D_rank : D.contr.rank = 1 := rfl
/-- … and its extent is 1024. -/
theorem D_size : D.contr.size ⟨0, by decide⟩ = 1024 := rfl

/-- The left factor is read at the output's row … -/
theorem lhs0 (i : S256x4096.Idx) (q : D.contr.Idx) : (D.lhsIdx i q 0).val = (i 0).val := by
  simp [DotDims.lhsIdx, D, dot_S256x1024_S1024x4096_S256x4096_1_0_0_1_n_n]; rfl
/-- … and the contracted coordinate; -/
theorem lhs1 (i : S256x4096.Idx) (q : D.contr.Idx) : (D.lhsIdx i q 1).val = (q ⟨0, by decide⟩).val := by
  simp [DotDims.lhsIdx, D, dot_S256x1024_S1024x4096_S256x4096_1_0_0_1_n_n]; rfl
/-- the right factor at the contracted coordinate … -/
theorem rhs0 (i : S256x4096.Idx) (q : D.contr.Idx) : (D.rhsIdx i q 0).val = (q ⟨0, by decide⟩).val := by
  simp [DotDims.rhsIdx, D, dot_S256x1024_S1024x4096_S256x4096_1_0_0_1_n_n]; rfl
/-- … and the output's column. -/
theorem rhs1 (i : S256x4096.Idx) (q : D.contr.Idx) : (D.rhsIdx i q 1).val = (i 1).val := by
  simp [DotDims.rhsIdx, D, dot_S256x1024_S1024x4096_S256x4096_1_0_0_1_n_n]; rfl

/-- The product into the zero block, at `(p, c)`: the row `p` of the left factor against the column `c` of the
    right factor. -/
theorem dot_apply {φ₁ φ₂ : FTy} (l : FVec Ideal S256x1024 φ₁) (r : FVec Ideal S1024x4096 φ₂) (p : Fin 256) (c : Fin 4096) :
    FloatOps.matmul D none l r (constant S256x4096 .f32 0x00000000#32) (ix2 p c)
      = ∑ a : Fin 1024, l (ix2 p a) * r (ix2 a c) :=
  Cert.LibPlainDot.matmul_zero_plain D D_rank D_size lhs0 lhs1 rhs0 rhs1 none l r p c

/-! ## The block of gate pre-activations at an entry -/

/-- The pre-activation block at `(p, j)` is the gate pre-activation of row `p` at column `j`: the two products are
    the two sums over the contracted coordinate (the narrowing of the left factors and the casts to the same shape
    change nothing), and the repeated bias row reads the bias at `j`. -/
theorem pay1_apply (x0 x2 : Vec Ideal S256x1024 .f32) (v5 v7 : Vec Ideal S1024x4096 .bf16) (v9 : Vec Ideal S1x4096 .f32)
    (p : Fin 256) (j : Fin 4096) :
    Gen.k0_pay1 (F := Ideal) x0 x2 v5 v7 v9 (ix2 p j)
      = Cert.CellSpec.gate (fun k => x0 (ix2 p k)) (fun k => x2 (ix2 p k)) (fun k j => v5 (ix2 k j)) (fun k j => v7 (ix2 k j))
          (fun j => v9 (ix2 (0 : Fin 1) j)) j := by
  -- a sum of blocks at an entry is the sum of the entries
  show ((FloatOps.matmul (F := Ideal) D none (truncf (F := Ideal) .bf16 (φ := .f32) x0 Gen.bitsLt_bf16_f32)
          (shapeCast S1024x4096 (v5 : FVec Ideal S1024x4096 .bf16) Gen.shapeCasts_S1024x4096_S1024x4096)
          (constant S256x4096 .f32 0x00000000#32) (ix2 p j)
      + FloatOps.matmul (F := Ideal) D none (truncf (F := Ideal) .bf16 (φ := .f32) x2 Gen.bitsLt_bf16_f32)
          (shapeCast S1024x4096 (v7 : FVec Ideal S1024x4096 .bf16) Gen.shapeCasts_S1024x4096_S1024x4096)
          (constant S256x4096 .f32 0x00000000#32) (ix2 p j))
      + broadcastTo S256x4096 (shapeCast S1x4096 v9 Gen.shapeCasts_S1x4096_S1x4096) Gen.broadcasts_S1x4096_S256x4096 (ix2 p j) : EReal) = _
  rw [dot_apply, dot_apply, shapeCast_self, shapeCast_self, shapeCast_self, broadcastTo_1b_ab_apply]
  -- the narrowed left factors read the unnarrowed ones; the rest is the definition of the gate pre-activation
  rfl

/-! ## A column panel at an entry -/

/-- The first panel (offset 0) at `(p, q)` reads the block at `(p, q)`. -/
theorem slice0_apply (X : S256x4096.Idx → EReal) (h : S256x4096.Slices ![0, 0] S256x1024) (p : Fin 256) (q : Fin 1024) :
    extractStridedSlice S256x1024 ![0, 0] X h (ix2 p q) = X (ix2 p ⟨q.val, by omega⟩) :=
  extractStridedSlice_apply _ _ _ _ _ (fun ax => by
    match ax with
    | ⟨0, _⟩ => exact (Nat.zero_add _).symm
    | ⟨1, _⟩ => exact (Nat.zero_add _).symm)

/-- The panel at column offset `o` at `(p, q)` reads the block at `(p, o + q)`. -/
theorem slice_apply (o : Nat) (X : S256x4096.Idx → EReal) (h : S256x4096.Slices ![0, o] S256x1024) (p : Fin 256) (q : Fin 1024)
    (ho : o + q.val < 4096) :
    extractStridedSlice S256x1024 ![0, o] X h (ix2 p q) = X (ix2 p ⟨o + q.val, ho⟩) :=
  extractStridedSlice_apply _ _ _ _ _ (fun ax => by
    match ax with
    | ⟨0, _⟩ => exact (Nat.zero_add _).symm
    | ⟨1, _⟩ => rfl)

/-! ## The two stored blocks at an entry -/

/-- THE NEW CELL BLOCK at `(p, q)`: `σ(f) * c + σ(i) * tanh(n)` with `f`, `i`, `n` the pre-activations of row `p` at
    columns `q`, `1024 + q`, `2048 + q` and `c` the old cell value at `(p, q)`. -/
theorem pay2_apply (x0 x2 x4 : Vec Ideal S256x1024 .f32) (v5 v7 : Vec Ideal S1024x4096 .bf16) (v9 : Vec Ideal S1x4096 .f32)
    (p : Fin 256) (q : Fin 1024) :
    Gen.k0_pay2 (F := Ideal) x0 x2 x4 v5 v7 v9 (ix2 p q)
      = Cert.CellSpec.cellNext (fun k => x0 (ix2 p k)) (fun k => x2 (ix2 p k)) (x4 (ix2 p q)) (fun k j => v5 (ix2 k j))
          (fun k j => v7 (ix2 k j)) (fun j => v9 (ix2 (0 : Fin 1) j)) q := by
  -- the logistic function, the hyperbolic tangent, products and sums of blocks act entry by entry
  show (Ideal.logistic (extractStridedSlice S256x1024 ![0, 0] (Gen.k0_pay1 (F := Ideal) x0 x2 v5 v7 v9)
            Gen.slices_S256x4096_o0_0_S256x1024 (ix2 p q)) * x4 (ix2 p q)
      + Ideal.logistic (extractStridedSlice S256x1024 ![0, 1024] (Gen.k0_pay1 (F := Ideal) x0 x2 v5 v7 v9)
            Gen.slices_S256x4096_o0_1024_S256x1024 (ix2 p q))
        * Ideal.tanh (extractStridedSlice S256x1024 ![0, 2048] (Gen.k0_pay1 (F := Ideal) x0 x2 v5 v7 v9)
            Gen.slices_S256x4096_o0_2048_S256x1024 (ix2 p q)) : EReal) = _
  rw [slice0_apply, slice_apply 1024 _ _ p q (by omega), slice_apply 2048 _ _ p q (by omega), pay1_apply, pay1_apply, pay1_apply]
  rfl

/-- THE NEW HIDDEN BLOCK at `(p, q)`: `σ(o) * tanh(new cell)` with `o` the pre-activation of row `p` at column
    `3072 + q`. -/
theorem pay3_apply (x0 x2 x4 : Vec Ideal S256x1024 .f32) (v5 v7 : Vec Ideal S1024x4096 .bf16) (v9 : Vec Ideal S1x4096 .f32)
    (p : Fin 256) (q : Fin 1024) :
    Gen.k0_pay3 (F := Ideal) x0 x2 x4 v5 v7 v9 (ix2 p q)
      = Cert.CellSpec.hiddenNext (fun k => x0 (ix2 p k)) (fun k => x2 (ix2 p k)) (x4 (ix2 p q)) (fun k j => v5 (ix2 k j))
          (fun k j => v7 (ix2 k j)) (fun j => v9 (ix2 (0 : Fin 1) j)) q := by
  show (Ideal.logistic (extractStridedSlice S256x1024 ![0, 3072] (Gen.k0_pay1 (F := Ideal) x0 x2 v5 v7 v9)
            Gen.slices_S256x4096_o0_3072_S256x1024 (ix2 p q))
        * Ideal.tanh (Gen.k0_pay2 (F := Ideal) x0 x2 x4 v5 v7 v9 (ix2 p q)) : EReal) = _
  rw [slice_apply 3072 _ _ p q (by omega), pay1_apply, pay2_apply]
  rfl

end Cert.KernelIdeal.BlockValue

end
-- ==== Proof.CellValue.lean ====
/-
  From the kernel's blocks to its two result arrays.

  The grid has sixteen points; point `t` handles the batch rows `256 t … 256 t + 255`. Its three batch blocks are
  those rows of the inputs, of the hidden states and of the cell states; its weight blocks are the two whole weight
  matrices and its bias block the whole bias row, the same at every point. What the body stores at `(p, q)` of a
  result block is the specification's value for batch row `256 t + p` at column `q`; the result blocks tile the result
  arrays (row `r` lies in block `r / 256`), so after the run each result array is the specification's array.
-/
import proofs.«126626_j29686813950554_2_alg».proof.Proof.BodyIdeal
import proofs.«126626_j29686813950554_2_alg».proof.Proof.EntryValues
import proofs.«126626_j29686813950554_2_alg».proof.Proof.CellSpec
import proofs.«126626_j29686813950554_2_alg».proof.Proof.BlockValue
import Idealize.ShloMosaic.Lib.Pipeline.Value
import Idealize.ShloMosaic.Lib.ValueIdx

set_option maxRecDepth 16384

noncomputable section

namespace Cert.KernelIdeal.CellValue

open Cert.KernelIdeal Cert.KernelIdeal.Gen Cert.KernelIdeal.Entry Cert.KernelIdeal.Body Cert.KernelIdeal.EntryValues
open Idealize.ShloMosaic Idealize.ShloMosaic.TcCoe Idealize.ShloMosaic.ValueIdx
open Idealize.SL Idealize.SL.Sem
open Idealize.ShloMosaic.Pipeline (Dat Cfg Window)

variable (m : (ℓ : Loc nD τ sig) → Buf (Elt Ideal) ℓ) (ρ : Dev nD → PrngReg)

/-! ## The two results as whole arrays -/

/-- The new hidden state as one array of the launch memory: at `(r, q)` the specification's new hidden value of batch
    row `r` at column `q`, over the two side-by-side weight matrices and the end-to-end bias. -/
def hiddenOut (c : Dev nD) : S4096x1024.Idx → EReal := fun i =>
  Cert.CellSpec.hiddenNext (fun k => m ((c.tc : Thread nD τ).loc main_arg0) (ix2 (⟨(i 0).val, idx2_lt0 i⟩ : Fin 4096) k))
    (fun k => m ((c.tc : Thread nD τ).loc main_arg1) (ix2 (⟨(i 0).val, idx2_lt0 i⟩ : Fin 4096) k))
    (m ((c.tc : Thread nD τ).loc main_arg2) i)
    (fun k j => Wx m c (ix2 k j)) (fun k j => Wh m c (ix2 k j)) (fun j => Bv m c (ix1 j)) ⟨(i 1).val, idx2_lt1 i⟩

/-- The new cell state as one array of the launch memory. -/
def cellOut (c : Dev nD) : S4096x1024.Idx → EReal := fun i =>
  Cert.CellSpec.cellNext (fun k => m ((c.tc : Thread nD τ).loc main_arg0) (ix2 (⟨(i 0).val, idx2_lt0 i⟩ : Fin 4096) k))
    (fun k => m ((c.tc : Thread nD τ).loc main_arg1) (ix2 (⟨(i 0).val, idx2_lt0 i⟩ : Fin 4096) k))
    (m ((c.tc : Thread nD τ).loc main_arg2) i)
    (fun k j => Wx m c (ix2 k j)) (fun k j => Wh m c (ix2 k j)) (fun j => Bv m c (ix1 j)) ⟨(i 1).val, idx2_lt1 i⟩

/-! ## Where the blocks sit -/

theorem hz : (![0, 0] : Fin 2 → Nat) = fun _ => 0 := funext fun a => by fin_cases a <;> rfl

/-- The index maps over the sixteen grid points: the three batch windows and the two result windows sit at block row
    `t`, the weight and bias windows at the one block there is. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0
    ∧ win0_7.index t (0 : Fin 2) = t.val ∧ win0_7.index t (1 : Fin 2) = 0 :=
  (by decide +kernel : ∀ t : Fin grid0.N, _)

theorem t_lt (t : Fin cfg0.N) : t.val < 16 := lt_of_lt_of_eq t.isLt N_0

/-- Row `p` of the inputs' block at point `t` is row `256 t + p` of the inputs. -/
theorem rows0 (c : Dev nD) (t : Fin cfg0.N) (p : Fin 256) (k : Fin 1024) :
    iblk m c 0 t (ix2 p k) = m ((c.tc : Thread nD τ).loc main_arg0) (ix2 (⟨t.val * 256 + p.val, by have := t_lt t; omega⟩ : Fin 4096) k) := by
  show V m c main_arg0 (((cfg0.win 0).blk t).view.emb (ix2 p k)) = _
  rw [V_main_arg0]
  obtain ⟨e0, e1, -⟩ := idx_facts t
  refine congrArg _ (funext fun a => Fin.ext ?_)
  match a with
  | ⟨0, _⟩ => show win0_0.index t (0 : Fin 2) * 256 + 1 * p.val = t.val * 256 + p.val; omega
  | ⟨1, _⟩ => show win0_0.index t (1 : Fin 2) * 1024 + 1 * k.val = k.val; omega

/-- Row `p` of window 1's block at point `t` is row `256 t + p` of its array. -/
theorem rows1 (c : Dev nD) (t : Fin cfg0.N) (p : Fin 256) (k : Fin 1024) :
    iblk m c 1 t (ix2 p k) = m ((c.tc : Thread nD τ).loc main_arg1) (ix2 (⟨t.val * 256 + p.val, by have := t_lt t; omega⟩ : Fin 4096) k) := by
  show V m c main_arg1 (((cfg0.win 1).blk t).view.emb (ix2 p k)) = _
  rw [V_main_arg1]
  obtain ⟨e00, e01, e10, e11, e20, e21, -⟩ := idx_facts t
  refine congrArg _ (funext fun a => Fin.ext ?_)
  match a with
  | ⟨0, _⟩ => show win0_1.index t (0 : Fin 2) * 256 + 1 * p.val = t.val * 256 + p.val; omega
  | ⟨1, _⟩ => show win0_1.index t (1 : Fin 2) * 1024 + 1 * k.val = k.val; omega
/-- Row `p` of window 2's block at point `t` is row `256 t + p` of its array. -/
theorem rows2 (c : Dev nD) (t : Fin cfg0.N) (p : Fin 256) (k : Fin 1024) :
    iblk m c 2 t (ix2 p k) = m ((c.tc : Thread nD τ).loc main_arg2) (ix2 (⟨t.val * 256 + p.val, by have := t_lt t; omega⟩ : Fin 4096) k) := by
  show V m c main_arg2 (((cfg0.win 2).blk t).view.emb (ix2 p k)) = _
  rw [V_main_arg2]
  obtain ⟨e00, e01, e10, e11, e20, e21, -⟩ := idx_facts t
  refine congrArg _ (funext fun a => Fin.ext ?_)
  match a with
  | ⟨0, _⟩ => show win0_2.index t (0 : Fin 2) * 256 + 1 * p.val = t.val * 256 + p.val; omega
  | ⟨1, _⟩ => show win0_2.index t (1 : Fin 2) * 1024 + 1 * k.val = k.val; omega
/-- The input weights' block is the whole matrix, at every point. -/
theorem weights3 (c : Dev nD) (t : Fin cfg0.N) (k : Fin 1024) (j : Fin 4096) :
    iblk m c 3 t (ix2 k j) = Wx m c (ix2 k j) := by
  refine Eq.trans ?_ (V_weights_x m c k j)
  show V m c main_v1 (((cfg0.win 3).blk t).view.emb (ix2 k j)) = _
  obtain ⟨-, -, -, -, -, -, e30, e31, e40, e41, -⟩ := idx_facts t
  refine congrArg _ (funext fun a => Fin.ext ?_)
  match a with
  | ⟨0, _⟩ => show win0_3.index t (0 : Fin 2) * 1024 + 1 * k.val = k.val; omega
  | ⟨1, _⟩ => show win0_3.index t (1 : Fin 2) * 4096 + 1 * j.val = j.val; omega
/-- The hidden weights' block is the whole matrix, at every point. -/
theorem weights4 (c : Dev nD) (t : Fin cfg0.N) (k : Fin 1024) (j : Fin 4096) :
    iblk m c 4 t (ix2 k j) = Wh m c (ix2 k j) := by
  refine Eq.trans ?_ (V_weights_h m c k j)
  show V m c main_v3 (((cfg0.win 4).blk t).view.emb (ix2 k j)) = _
  obtain ⟨-, -, -, -, -, -, e30, e31, e40, e41, -⟩ := idx_facts t
  refine congrArg _ (funext fun a => Fin.ext ?_)
  match a with
  | ⟨0, _⟩ => show win0_4.index t (0 : Fin 2) * 1024 + 1 * k.val = k.val; omega
  | ⟨1, _⟩ => show win0_4.index t (1 : Fin 2) * 4096 + 1 * j.val = j.val; omega
/-- The bias block is the whole bias row, at every point. -/
theorem bias5 (c : Dev nD) (t : Fin cfg0.N) (j : Fin 4096) :
    iblk m c 5 t (ix2 (0 : Fin 1) j) = Bv m c (ix1 j) := by
  refine Eq.trans ?_ (V_bias m c j)
  show V m c main_v5 (((cfg0.win 5).blk t).view.emb (ix2 (0 : Fin 1) j)) = _
  obtain ⟨-, -, -, -, -, -, -, -, -, -, e50, e51, -⟩ := idx_facts t
  refine congrArg _ (funext fun a => Fin.ext ?_)
  match a with
  | ⟨0, _⟩ => show win0_5.index t (0 : Fin 2) * 1 + 1 * 0 = 0; omega
  | ⟨1, _⟩ => show win0_5.index t (1 : Fin 2) * 4096 + 1 * j.val = j.val; omega

/-- Entry `(p, q)` of a result block at point `t` is entry `(256 t + p, q)` of the result array. -/
theorem emb6 (t : Fin cfg0.N) (p : Fin 256) (q : Fin 1024) :
    ((cfg0.win 6).blk t).view.emb (ix2 p q) = ix2 (⟨t.val * 256 + p.val, by have := t_lt t; omega⟩ : Fin 4096) q := by
  obtain ⟨-, -, -, -, -, -, -, -, -, -, -, -, e60, e61, -⟩ := idx_facts t
  refine funext fun a => Fin.ext ?_
  match a with
  | ⟨0, _⟩ => show win0_6.index t (0 : Fin 2) * 256 + 1 * p.val = t.val * 256 + p.val; omega
  | ⟨1, _⟩ => show win0_6.index t (1 : Fin 2) * 1024 + 1 * q.val = q.val; omega
theorem emb7 (t : Fin cfg0.N) (p : Fin 256) (q : Fin 1024) :
    ((cfg0.win 7).blk t).view.emb (ix2 p q) = ix2 (⟨t.val * 256 + p.val, by have := t_lt t; omega⟩ : Fin 4096) q := by
  obtain ⟨-, -, -, -, -, -, -, -, -, -, -, -, -, -, e70, e71⟩ := idx_facts t
  refine funext fun a => Fin.ext ?_
  match a with
  | ⟨0, _⟩ => show win0_7.index t (0 : Fin 2) * 256 + 1 * p.val = t.val * 256 + p.val; omega
  | ⟨1, _⟩ => show win0_7.index t (1 : Fin 2) * 1024 + 1 * q.val = q.val; omega

/-! ## What each point writes back -/

/-- What point `t` writes back into the new hidden array is block `t` of `hiddenOut`. -/
theorem flushed6_eq (c : Dev nD) (t : Fin cfg0.N) :
    (dats m 0 c).flushed 6 t = ((cfg0.win 6).blk t).view.read (Elt Ideal) (hiddenOut m c) := by
  show (cfg0.win 6).cut (grid0.coords t) ((dats m 0 c).after 6 t) = _
  rw [after0_6]
  unfold outH
  rw [View.canon_unit_zero hz]
  simp only [View.ld_unit_zero (S := S256x1024) hz, View.ld_unit_zero (S := S1024x4096) hz, View.ld_unit_zero (S := S1x4096) hz]
  funext y
  obtain ⟨p, q, rfl⟩ : ∃ (p : Fin 256) (q : Fin 1024), y = ix2 p q := ⟨y 0, y 1, eq_ix2 y⟩
  refine (Cert.KernelIdeal.BlockValue.pay3_apply _ _ _ _ _ _ p q).trans ?_
  show _ = hiddenOut m c (((cfg0.win 6).blk t).view.emb (ix2 p q))
  rw [emb6 t p q]
  unfold hiddenOut
  have h0 : (fun k => iblk m c 0 t (ix2 p k)) = fun k => m ((c.tc : Thread nD τ).loc main_arg0) (ix2 (⟨t.val * 256 + p.val, by have := t_lt t; omega⟩ : Fin 4096) k) := funext (rows0 m c t p)
  have h1 : (fun k => iblk m c 1 t (ix2 p k)) = fun k => m ((c.tc : Thread nD τ).loc main_arg1) (ix2 (⟨t.val * 256 + p.val, by have := t_lt t; omega⟩ : Fin 4096) k) := funext (rows1 m c t p)
  have h2 := rows2 m c t p q
  have h3 : (fun k j => iblk m c 3 t (ix2 k j)) = fun k j => Wx m c (ix2 k j) := funext fun k => funext (weights3 m c t k)
  have h4 : (fun k j => iblk m c 4 t (ix2 k j)) = fun k j => Wh m c (ix2 k j) := funext fun k => funext (weights4 m c t k)
  have h5 : (fun j => iblk m c 5 t (ix2 (0 : Fin 1) j)) = fun j => Bv m c (ix1 j) := funext (bias5 m c t)
  rw [h0, h1, h2, h3, h4, h5]
/-- What point `t` writes back into the new cell array is block `t` of `cellOut`. -/
theorem flushed7_eq (c : Dev nD) (t : Fin cfg0.N) :
    (dats m 0 c).flushed 7 t = ((cfg0.win 7).blk t).view.read (Elt Ideal) (cellOut m c) := by
  show (cfg0.win 7).cut (grid0.coords t) ((dats m 0 c).after 7 t) = _
  rw [after0_7]
  unfold outC
  rw [View.canon_unit_zero hz]
  simp only [View.ld_unit_zero (S := S256x1024) hz, View.ld_unit_zero (S := S1024x4096) hz, View.ld_unit_zero (S := S1x4096) hz]
  funext y
  obtain ⟨p, q, rfl⟩ : ∃ (p : Fin 256) (q : Fin 1024), y = ix2 p q := ⟨y 0, y 1, eq_ix2 y⟩
  refine (Cert.KernelIdeal.BlockValue.pay2_apply _ _ _ _ _ _ p q).trans ?_
  show _ = cellOut m c (((cfg0.win 7).blk t).view.emb (ix2 p q))
  rw [emb7 t p q]
  unfold cellOut
  have h0 : (fun k => iblk m c 0 t (ix2 p k)) = fun k => m ((c.tc : Thread nD τ).loc main_arg0) (ix2 (⟨t.val * 256 + p.val, by have := t_lt t; omega⟩ : Fin 4096) k) := funext (rows0 m c t p)
  have h1 : (fun k => iblk m c 1 t (ix2 p k)) = fun k => m ((c.tc : Thread nD τ).loc main_arg1) (ix2 (⟨t.val * 256 + p.val, by have := t_lt t; omega⟩ : Fin 4096) k) := funext (rows1 m c t p)
  have h2 := rows2 m c t p q
  have h3 : (fun k j => iblk m c 3 t (ix2 k j)) = fun k j => Wx m c (ix2 k j) := funext fun k => funext (weights3 m c t k)
  have h4 : (fun k j => iblk m c 4 t (ix2 k j)) = fun k j => Wh m c (ix2 k j) := funext fun k => funext (weights4 m c t k)
  have h5 : (fun j => iblk m c 5 t (ix2 (0 : Fin 1) j)) = fun j => Bv m c (ix1 j) := funext (bias5 m c t)
  rw [h0, h1, h2, h3, h4, h5]

/-! ## From the blocks to the arrays -/

/-- An index of the array is in point `t`'s block iff each coordinate is in the block's range on its axis. -/
theorem mem_blk6 (t : Fin cfg0.N) (i : S4096x1024.Idx) :
    i ∈ ((cfg0.win 6).blk t).view.set ↔ ∀ a : Fin 2, win0_6.index t a * S256x1024.size a ≤ (i a).val ∧ (i a).val < win0_6.index t a * S256x1024.size a + S256x1024.size a := by
  show i ∈ ((View.whole main_v6_0).slice (win0_6.rect t)).set ↔ _
  rw [View.set_slice_whole, Rect.mem_set_unit]
  exact Iff.rfl

/-- Every index of the array is in the block of the point that holds its row: row `r` is in block `r / 256`. -/
theorem cover6 (i : S4096x1024.Idx) : ∃ t : Fin cfg0.N, (cfg0.win 6).flush t = true ∧ i ∈ ((cfg0.win 6).blk t).view.set := by
  have hi0 : (i 0).val < 4096 := (i 0).isLt
  have hi1 : (i 1).val < 1024 := (i 1).isLt
  let t : Fin cfg0.N := ⟨(i 0).val / 256, by rw [show cfg0.N = 16 from N_0]; omega⟩
  have htv : t.val = (i 0).val / 256 := rfl
  refine ⟨t, flush0_6 t, ?_⟩
  rw [mem_blk6]
  obtain ⟨-, -, -, -, -, -, -, -, -, -, -, -, e60, e61, e70, e71⟩ := idx_facts t
  intro a
  match a with
  | ⟨0, _⟩ => show win0_6.index t (0 : Fin 2) * 256 ≤ (i 0).val ∧ (i 0).val < win0_6.index t (0 : Fin 2) * 256 + 256; omega
  | ⟨1, _⟩ => show win0_6.index t (1 : Fin 2) * 1024 ≤ (i 1).val ∧ (i 1).val < win0_6.index t (1 : Fin 2) * 1024 + 1024; omega

/-- The array after the run. -/
theorem final6 (c : Dev nD) : (dats m 0 c).arrAt 6 cfg0.N = hiddenOut m c :=
  (dats m 0 c).arrAt_eq_of_cover 6 (hiddenOut m c) (fun t _ => flushed6_eq m c t) cover6
/-- An index of the array is in point `t`'s block iff each coordinate is in the block's range on its axis. -/
theorem mem_blk7 (t : Fin cfg0.N) (i : S4096x1024.Idx) :
    i ∈ ((cfg0.win 7).blk t).view.set ↔ ∀ a : Fin 2, win0_7.index t a * S256x1024.size a ≤ (i a).val ∧ (i a).val < win0_7.index t a * S256x1024.size a + S256x1024.size a := by
  show i ∈ ((View.whole main_v6_1).slice (win0_7.rect t)).set ↔ _
  rw [View.set_slice_whole, Rect.mem_set_unit]
  exact Iff.rfl

/-- Every index of the array is in the block of the point that holds its row: row `r` is in block `r / 256`. -/
theorem cover7 (i : S4096x1024.Idx) : ∃ t : Fin cfg0.N, (cfg0.win 7).flush t = true ∧ i ∈ ((cfg0.win 7).blk t).view.set := by
  have hi0 : (i 0).val < 4096 := (i 0).isLt
  have hi1 : (i 1).val < 1024 := (i 1).isLt
  let t : Fin cfg0.N := ⟨(i 0).val / 256, by rw [show cfg0.N = 16 from N_0]; omega⟩
  have htv : t.val = (i 0).val / 256 := rfl
  refine ⟨t, flush0_7 t, ?_⟩
  rw [mem_blk7]
  obtain ⟨-, -, -, -, -, -, -, -, -, -, -, -, e60, e61, e70, e71⟩ := idx_facts t
  intro a
  match a with
  | ⟨0, _⟩ => show win0_7.index t (0 : Fin 2) * 256 ≤ (i 0).val ∧ (i 0).val < win0_7.index t (0 : Fin 2) * 256 + 256; omega
  | ⟨1, _⟩ => show win0_7.index t (1 : Fin 2) * 1024 ≤ (i 1).val ∧ (i 1).val < win0_7.index t (1 : Fin 2) * 1024 + 1024; omega

/-- The array after the run. -/
theorem final7 (c : Dev nD) : (dats m 0 c).arrAt 7 cfg0.N = cellOut m c :=
  (dats m 0 c).arrAt_eq_of_cover 7 (cellOut m c) (fun t _ => flushed7_eq m c t) cover7

/-! ## The run, read -/

/-- The idealized kernel program runs to the end with the new hidden and new cell arrays at `hiddenOut` and `cellOut`
    of the launch memory, and every argument array as launched. -/
theorem run : θ_run defs (onTc (τ := τ) (main (F := Ideal))) ⟨m, fun _ => 0, ρ⟩ (fun r => ∀ c : Dev nD,
      (r.2.mem ((c.tc : Thread nD τ).loc main_v6_0) = hiddenOut m c ∧ r.2.mem ((c.tc : Thread nD τ).loc main_v6_1) = cellOut m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  (θ_run defs _ _).mono (fun r h c => ⟨⟨((h c).1 6).trans (final6 m c), ((h c).1 7).trans (final7 m c)⟩,
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c),
      ((h c).2 main_arg11 (Pipeline.mem_restRefs_of main_arg11 (by decide) (by decide))).trans (V_main_arg11 m c),
      ((h c).2 main_arg12 (Pipeline.mem_restRefs_of main_arg12 (by decide) (by decide))).trans (V_main_arg12 m c),
      ((h c).2 main_arg13 (Pipeline.mem_restRefs_of main_arg13 (by decide) (by decide))).trans (V_main_arg13 m c),
      ((h c).2 main_arg14 (Pipeline.mem_restRefs_of main_arg14 (by decide) (by decide))).trans (V_main_arg14 m c)⟩)
    (run_main m ρ)

end Cert.KernelIdeal.CellValue

end
-- ==== Proof.LibPlainHostDot.lean ====
/-
  The host's matrix product with plain dimension numbers, read at an entry in exact arithmetic.

  A `stablehlo.dot_general` of a rows-by-`K` matrix with a `K`-by-columns matrix (one contracted axis, nothing
  batched) is, at the entry `(p, c)`, the sum over the contracted coordinate `a` of the left factor at `(p, a)`
  times the right factor at `(a, c)`. On the extended reals this is a plain finite sum: no accumulator is added
  and nothing is cancelled, so no finiteness of the entries is needed.
-/
import Idealize.ShloMosaic.PureOps.Ideal.Laws
import Idealize.ShloMosaic.Lib.ValueIdx

noncomputable section

open scoped BigOperators

namespace Cert.LibPlainHostDot

open Idealize.ShloMosaic Idealize.ShloMosaic.ValueIdx

/-- A plain `R × K` by `K × C` host product read at `(p, c)` in exact arithmetic: `∑ a, l (p, a) * r (a, c)`.
    The hypotheses `hl0 … hr1` say the dimension numbers are the plain ones: the left factor's index takes its row
    from the output index and its column from the contraction index, the right factor's its row from the
    contraction index and its column from the output index. -/
theorem hostDot_plain {R K C : Nat} {φ₁ φ₂ : FTy}
    (D : DotDims ⟨2, ![R, K]⟩ ⟨2, ![K, C]⟩ ⟨2, ![R, C]⟩) (hr : D.contr.rank = 1)
    (hs : D.contr.size ⟨0, by omega⟩ = K)
    (hl0 : ∀ i q, (D.lhsIdx i q 0).val = (i 0).val)
    (hl1 : ∀ i q, (D.lhsIdx i q 1).val = (q ⟨0, by omega⟩).val)
    (hr0 : ∀ i q, (D.rhsIdx i q 0).val = (q ⟨0, by omega⟩).val)
    (hr1 : ∀ i q, (D.rhsIdx i q 1).val = (i 1).val)
    (prec : Option ContractPrecision) (l : FVec Ideal ⟨2, ![R, K]⟩ φ₁) (r : FVec Ideal ⟨2, ![K, C]⟩ φ₂)
    (p : Fin R) (c : Fin C) :
    Host.dotGeneral D prec l r (ix2 p c) = ∑ a : Fin K, l (ix2 p a) * r (ix2 a c) := by
  show FloatOps.dotGeneral D prec .single l r (ix2 p c) = _
  rw [Ideal.dotGeneral_apply, ← Equiv.sum_comp (contrEquiv1 D K hr hs).symm]
  refine Finset.sum_congr rfl fun k _ => ?_
  have hk := contrEquiv1_symm_val D K hr hs k
  have el : D.lhsIdx (ix2 p c) ((contrEquiv1 D K hr hs).symm k) = ix2 p k := funext fun a => Fin.ext (by
    match a with
    | ⟨0, _⟩ => exact hl0 _ _
    | ⟨1, _⟩ => exact (hl1 _ _).trans hk)
  have er : D.rhsIdx (ix2 p c) ((contrEquiv1 D K hr hs).symm k) = ix2 k c := funext fun a => Fin.ext (by
    match a with
    | ⟨0, _⟩ => exact (hr0 _ _).trans hk
    | ⟨1, _⟩ => exact hr1 _ _)
  rw [el, er]

end Cert.LibPlainHostDot

end
-- ==== Proof.LibRowBroadcast.lean ====
/-
  A vector laid out as one row and repeated over many rows, read at an entry.

  A bias vector `b` of length `n` is added to an `[a, n]` array through two `broadcast_in_dim`s: `b` to `[1, n]` along axis 1,
  then that row to `[a, n]` along both axes. The result at `(p, q)` is `b q`, whatever the row `p`.
-/
import Idealize.ShloMosaic.Lib.Pipeline.Value
import Idealize.ShloMosaic.Lib.ValueIdx

noncomputable section

namespace Cert.LibRowBroadcast

open Idealize.ShloMosaic Idealize.ShloMosaic.ValueIdx

/-- A length-`n` vector broadcast to `[1, n]` along axis 1 reads, at `(u, q)`, the vector at `q`. -/
theorem vector_as_row_apply {α : Type} {n : ℕ} (x : (⟨1, ![n]⟩ : Shape).Idx → α)
    (h : (⟨1, ![n]⟩ : Shape).BroadcastsInDim ⟨2, ![1, n]⟩ (![1] : Fin 1 → Fin 2)) (u : Fin 1) (q : Fin n) :
    broadcastInDim ⟨2, ![1, n]⟩ ![1] h x (ix2 u q) = x (ix1 q) := by
  refine broadcastInDim_apply ![1] h x (ix2 u q) (ix1 q) fun a => ?_
  match a with
  | ⟨0, _⟩ =>
    show q.val = if n = 1 then 0 else q.val
    split
    · have := q.isLt; omega
    · rfl

/-- A `[1, n]` row broadcast to `[a, n]` along both axes reads, at `(p, q)`, the row at `q`. -/
theorem row_over_rows_apply {α : Type} {a n : ℕ} (x : (⟨2, ![1, n]⟩ : Shape).Idx → α)
    (h : (⟨2, ![1, n]⟩ : Shape).BroadcastsInDim ⟨2, ![a, n]⟩ (![0, 1] : Fin 2 → Fin 2)) (p : Fin a) (q : Fin n) :
    broadcastInDim ⟨2, ![a, n]⟩ ![0, 1] h x (ix2 p q) = x (ix2 (0 : Fin 1) q) := by
  refine broadcastInDim_apply ![0, 1] h x (ix2 p q) (ix2 (0 : Fin 1) q) fun ax => ?_
  match ax with
  | ⟨0, _⟩ => show 0 = if (1 : ℕ) = 1 then 0 else p.val; rw [if_pos rfl]
  | ⟨1, _⟩ =>
    show q.val = if n = 1 then 0 else q.val
    split
    · have := q.isLt; omega
    · rfl

/-- The two together: a vector added as a bias to every row reads, at `(p, q)`, the vector at `q`. -/
theorem vector_over_rows_apply {α : Type} {a n : ℕ} (x : (⟨1, ![n]⟩ : Shape).Idx → α)
    (h1 : (⟨1, ![n]⟩ : Shape).BroadcastsInDim ⟨2, ![1, n]⟩ (![1] : Fin 1 → Fin 2))
    (h2 : (⟨2, ![1, n]⟩ : Shape).BroadcastsInDim ⟨2, ![a, n]⟩ (![0, 1] : Fin 2 → Fin 2)) (p : Fin a) (q : Fin n) :
    broadcastInDim ⟨2, ![a, n]⟩ ![0, 1] h2 (broadcastInDim ⟨2, ![1, n]⟩ ![1] h1 x) (ix2 p q) = x (ix1 q) := by
  rw [row_over_rows_apply, vector_as_row_apply]

end Cert.LibRowBroadcast

end
-- ==== Proof.RefValueEntry.lean ====
/-
  One step of the cell as the reference program composes it, read at an entry.

  The reference program adds two matrix products and a bias repeated over the rows, cuts the sum into four blocks
  of 1024 columns, and combines the blocks through `1 / (1 + e^(-x))` and `tanh`. Over arbitrary arrays — the two
  row inputs `a0`, `a1`, the previous cell values `a2`, the two 1024-by-4096 weight arrays `wx`, `wh` and the bias
  `bv` — the compositions read at batch row `p` and column `q` are the cell specification's `cellNext` and
  `hiddenNext` of row `p` at column `q`. The weight arrays and the bias stay variables: nothing here looks inside them.
-/
import proofs.«126626_j29686813950554_2_alg».proof.Proof.Gen.ReferenceIdeal
import proofs.«126626_j29686813950554_2_alg».proof.Proof.CellSpec
import proofs.«126626_j29686813950554_2_alg».proof.Proof.LibPlainHostDot
import proofs.«126626_j29686813950554_2_alg».proof.Proof.LibRowBroadcast
import Idealize.ShloMosaic.Lib.Pipeline.Value
import Idealize.ShloMosaic.Lib.ValueIdx
import Idealize.ShloMosaic.PureOps.Ideal.Laws

noncomputable section

open scoped BigOperators

namespace Cert.ReferenceIdeal.RefValue

open Idealize.ShloMosaic Idealize.ShloMosaic.ValueIdx Cert.ReferenceIdeal Cert.ReferenceIdeal.Gen

/-! ## The pieces at an entry -/

/-- The reference's matrix product (second axis of the left factor against the first of the right) at `(p, j)`:
    the sum over the contracted coordinate. -/
theorem hostDot_apply (l : FVec Ideal S4096x1024 .f32) (r : FVec Ideal S1024x4096 .f32) (p : Fin 4096) (j : Fin 4096) :
    Host.dotGeneral dot_S4096x1024_S1024x4096_S4096x4096_1_0_0_1_n_n none l r (ix2 p j) = ∑ k : Fin 1024, l (ix2 p k) * r (ix2 k j) :=
  Cert.LibPlainHostDot.hostDot_plain dot_S4096x1024_S1024x4096_S4096x4096_1_0_0_1_n_n rfl rfl
    (fun i q => by
      unfold DotDims.lhsIdx
      rw [dif_neg (show ¬(0 : Fin S4096x1024.rank) ∈ dot_S4096x1024_S1024x4096_S4096x4096_1_0_0_1_n_n.lhsBatch by decide),
        dif_pos (show (0 : Fin S4096x1024.rank) ∈ dot_S4096x1024_S1024x4096_S4096x4096_1_0_0_1_n_n.lhsNonContracting by decide)]
      rfl)
    (fun i q => dot_S4096x1024_S1024x4096_S4096x4096_1_0_0_1_n_n.lhsIdx_val_of_single rfl i q)
    (fun i q => dot_S4096x1024_S1024x4096_S4096x4096_1_0_0_1_n_n.rhsIdx_val_of_single rfl i q)
    (fun i q => by
      unfold DotDims.rhsIdx
      rw [dif_neg (show ¬(1 : Fin S1024x4096.rank) ∈ dot_S4096x1024_S1024x4096_S4096x4096_1_0_0_1_n_n.rhsBatch by decide),
        dif_pos (show (1 : Fin S1024x4096.rank) ∈ dot_S4096x1024_S1024x4096_S4096x4096_1_0_0_1_n_n.rhsNonContracting by decide)]
      rfl)
    none l r p j

/-- The word `0x3F800000` is the single-precision one. -/
theorem ofBits_one : Ideal.ofBits .f32 0x3F800000#32 = 1 := by
  simp [Ideal.ofBits, Ideal.ieee, -EReal.coe_mul]; norm_num

/-- The hyperbolic tangent of an array at an entry. -/
theorem hostTanh_apply (x : FVec Ideal S4096x1024 .f32) (i : S4096x1024.Idx) : Host.tanh x i = Ideal.tanh (x i) := rfl

/-- A block of 1024 columns starting at column `off` of a 4096-column array, read at `(p, q)`: the array at
    `(p, off + q)`, the column named by the caller as `j`. -/
theorem block_apply (off : Nat) (y : S4096x4096.Idx → EReal) (h : S4096x4096.Slices ![0, off] S4096x1024)
    (p : Fin 4096) (q : Fin 1024) (j : Fin 4096) (hj : j.val = off + q.val) :
    extractStridedSlice S4096x1024 ![0, off] y h (ix2 p q) = y (ix2 p j) :=
  extractStridedSlice_apply ![0, off] y h (ix2 p q) (ix2 p j) fun a => match a with
    | ⟨0, _⟩ => by show p.val = 0 + p.val; omega
    | ⟨1, _⟩ => by show j.val = off + q.val; exact hj

/-! ## The compositions -/

/-- The pre-activations: the two products added, plus the bias repeated over the rows. -/
def preact (a0 a1 : FVec Ideal S4096x1024 .f32) (wx wh : FVec Ideal S1024x4096 .f32) (bv : FVec Ideal S4096 .f32) :
    FVec Ideal S4096x4096 .f32 :=
  addf (addf (Host.dotGeneral dot_S4096x1024_S1024x4096_S4096x4096_1_0_0_1_n_n none a0 wx) (Host.dotGeneral dot_S4096x1024_S1024x4096_S4096x4096_1_0_0_1_n_n none a1 wh))
    (broadcastInDim S4096x4096 ![0, 1] bcast_S1x4096_S4096x4096_0_1 (broadcastInDim S1x4096 ![1] bcast_S4096_S1x4096_1 bv))

/-- `1 / (1 + e^(-x))` spelt with the reference's operations: negate, exponential, add one, divide one by it. -/
def sigm (x : FVec Ideal S4096x1024 .f32) : FVec Ideal S4096x1024 .f32 :=
  Host.divf (broadcastInDim S4096x1024 ![] bcast_S_S4096x1024 (constant S_ .f32 0x3F800000#32))
    (addf (broadcastInDim S4096x1024 ![] bcast_S_S4096x1024 (constant S_ .f32 0x3F800000#32)) (Host.exp (Host.negf x)))

/-- The new cell values: forget gate times the old cell values plus input gate times candidate. -/
def cellTerm (a0 a1 a2 : FVec Ideal S4096x1024 .f32) (wx wh : FVec Ideal S1024x4096 .f32) (bv : FVec Ideal S4096 .f32) :
    FVec Ideal S4096x1024 .f32 :=
  addf (mulf (sigm (extractStridedSlice S4096x1024 ![0, 0] (preact a0 a1 wx wh bv) slices_S4096x4096_S4096x1024_0_0)) a2)
    (mulf (sigm (extractStridedSlice S4096x1024 ![0, 1024] (preact a0 a1 wx wh bv) slices_S4096x4096_S4096x1024_0_1024))
      (Host.tanh (extractStridedSlice S4096x1024 ![0, 2048] (preact a0 a1 wx wh bv) slices_S4096x4096_S4096x1024_0_2048)))

/-- The new hidden values: output gate times the hyperbolic tangent of the new cell values. -/
def hiddenTerm (a0 a1 a2 : FVec Ideal S4096x1024 .f32) (wx wh : FVec Ideal S1024x4096 .f32) (bv : FVec Ideal S4096 .f32) :
    FVec Ideal S4096x1024 .f32 :=
  mulf (sigm (extractStridedSlice S4096x1024 ![0, 3072] (preact a0 a1 wx wh bv) slices_S4096x4096_S4096x1024_0_3072))
    (Host.tanh (cellTerm a0 a1 a2 wx wh bv))

/-! ## The compositions at an entry -/

/-- The pre-activation at `(p, j)` is the specification's gate value of row `p` at column `j`. -/
theorem preact_apply (a0 a1 : FVec Ideal S4096x1024 .f32) (wx wh : FVec Ideal S1024x4096 .f32) (bv : FVec Ideal S4096 .f32)
    (p j : Fin 4096) :
    preact a0 a1 wx wh bv (ix2 p j)
      = Cert.CellSpec.gate (fun k => a0 (ix2 p k)) (fun k => a1 (ix2 p k)) (fun k j => wx (ix2 k j)) (fun k j => wh (ix2 k j))
          (fun j => bv (ix1 j)) j := by
  have hb := Cert.LibRowBroadcast.vector_over_rows_apply (a := 4096) (n := 4096) bv bcast_S4096_S1x4096_1
    bcast_S1x4096_S4096x4096_0_1 p j
  unfold preact Cert.CellSpec.gate
  rw [addf_apply, addf_apply, hostDot_apply, hostDot_apply]
  exact congrArg _ hb

/-- The spelt-out `1 / (1 + e^(-x))` at an entry is the logistic function of the entry. -/
theorem sigm_apply (x : FVec Ideal S4096x1024 .f32) (i : S4096x1024.Idx) : sigm x i = Ideal.logistic (x i) := by
  show Ideal.div (Ideal.ofBits .f32 0x3F800000#32) (Ideal.ofBits .f32 0x3F800000#32 + Ideal.exp (-(x i))) = _
  rw [ofBits_one]
  rfl

/-- The new cell value at `(p, q)` is the specification's, of row `p` at column `q`. -/
theorem cellTerm_apply (a0 a1 a2 : FVec Ideal S4096x1024 .f32) (wx wh : FVec Ideal S1024x4096 .f32) (bv : FVec Ideal S4096 .f32)
    (p : Fin 4096) (q : Fin 1024) :
    cellTerm a0 a1 a2 wx wh bv (ix2 p q)
      = Cert.CellSpec.cellNext (fun k => a0 (ix2 p k)) (fun k => a1 (ix2 p k)) (a2 (ix2 p q)) (fun k j => wx (ix2 k j))
          (fun k j => wh (ix2 k j)) (fun j => bv (ix1 j)) q := by
  unfold cellTerm Cert.CellSpec.cellNext
  rw [addf_apply, mulf_apply, mulf_apply, sigm_apply, sigm_apply, hostTanh_apply,
    block_apply 0 _ _ p q ⟨q.val, by omega⟩ (by show q.val = 0 + q.val; omega),
    block_apply 1024 _ _ p q ⟨1024 + q.val, by omega⟩ rfl,
    block_apply 2048 _ _ p q ⟨2048 + q.val, by omega⟩ rfl,
    preact_apply, preact_apply, preact_apply]

/-- The new hidden value at `(p, q)` is the specification's, of row `p` at column `q`. -/
theorem hiddenTerm_apply (a0 a1 a2 : FVec Ideal S4096x1024 .f32) (wx wh : FVec Ideal S1024x4096 .f32) (bv : FVec Ideal S4096 .f32)
    (p : Fin 4096) (q : Fin 1024) :
    hiddenTerm a0 a1 a2 wx wh bv (ix2 p q)
      = Cert.CellSpec.hiddenNext (fun k => a0 (ix2 p k)) (fun k => a1 (ix2 p k)) (a2 (ix2 p q)) (fun k j => wx (ix2 k j))
          (fun k j => wh (ix2 k j)) (fun j => bv (ix1 j)) q := by
  unfold hiddenTerm Cert.CellSpec.hiddenNext
  rw [mulf_apply, sigm_apply, hostTanh_apply, cellTerm_apply,
    block_apply 3072 _ _ p q ⟨3072 + q.val, by omega⟩ rfl, preact_apply]

end Cert.ReferenceIdeal.RefValue

end
-- ==== Proof.RefValue.lean ====
/-
  The reference program's run, with its two results stated entry by entry as one step of the cell.

  Every weakly fair execution of the reference program terminates with the new hidden values and the new cell values in
  its two result buffers and its fifteen arguments unchanged. The results are stated through the cell specification:
  at batch row `p` and column `q` they are `hiddenNext` and `cellNext` of row `p` of the input, of row `p` of the
  previous hidden values and of the previous cell value at `(p, q)`, against the two weight arrays and the bias.
  The weight arrays and the bias are the program's three concatenations of its arguments, kept whole: nothing
  here reads a concatenation at an index.
-/
import proofs.«126626_j29686813950554_2_alg».proof.Proof.Gen.ReferenceIdeal.Read
import proofs.«126626_j29686813950554_2_alg».proof.Proof.RefValueEntry

noncomputable section

namespace Cert.ReferenceIdeal.RefValue

open Idealize.ShloMosaic Idealize.ShloMosaic.ValueIdx Cert.ReferenceIdeal
open Idealize.ShloMosaic.TcCoe Idealize.SL.Sem

/-- The input weights: the four gates' 1024-by-1024 blocks side by side, as arrays of the launch memory. -/
def Wx (m : (ℓ : Loc nD τ sig) → Buf (Elt Ideal) ℓ) (c : Dev nD) : FVec Ideal S1024x4096 .f32 :=
  concatenate S1024x4096 1 [⟨S1024x1024, m ((c.tc : Thread nD τ).loc main_arg6)⟩, ⟨S1024x1024, m ((c.tc : Thread nD τ).loc main_arg3)⟩,
    ⟨S1024x1024, m ((c.tc : Thread nD τ).loc main_arg9)⟩, ⟨S1024x1024, m ((c.tc : Thread nD τ).loc main_arg12)⟩]
    Facts₀.concatenates_S1024x1024_S1024x1024_S1024x1024_S1024x1024_S1024x4096_d1

/-- The hidden weights: the four gates' 1024-by-1024 blocks side by side. -/
def Wh (m : (ℓ : Loc nD τ sig) → Buf (Elt Ideal) ℓ) (c : Dev nD) : FVec Ideal S1024x4096 .f32 :=
  concatenate S1024x4096 1 [⟨S1024x1024, m ((c.tc : Thread nD τ).loc main_arg7)⟩, ⟨S1024x1024, m ((c.tc : Thread nD τ).loc main_arg4)⟩,
    ⟨S1024x1024, m ((c.tc : Thread nD τ).loc main_arg10)⟩, ⟨S1024x1024, m ((c.tc : Thread nD τ).loc main_arg13)⟩]
    Facts₀.concatenates_S1024x1024_S1024x1024_S1024x1024_S1024x1024_S1024x4096_d1

/-- The bias: the four gates' vectors of length 1024 end to end. -/
def Bv (m : (ℓ : Loc nD τ sig) → Buf (Elt Ideal) ℓ) (c : Dev nD) : FVec Ideal S4096 .f32 :=
  concatenate S4096 0 [⟨S1024, m ((c.tc : Thread nD τ).loc main_arg8)⟩, ⟨S1024, m ((c.tc : Thread nD τ).loc main_arg5)⟩,
    ⟨S1024, m ((c.tc : Thread nD τ).loc main_arg11)⟩, ⟨S1024, m ((c.tc : Thread nD τ).loc main_arg14)⟩]
    Facts₀.concatenates_S1024_S1024_S1024_S1024_S4096_d0

/-- The new hidden values as a whole array: at `i`, the specification's value of row `i 0` at column `i 1`. -/
def hiddenOut (m : (ℓ : Loc nD τ sig) → Buf (Elt Ideal) ℓ) (c : Dev nD) : S4096x1024.Idx → EReal := fun i =>
  Cert.CellSpec.hiddenNext
    (fun k => (m ((c.tc : Thread nD τ).loc main_arg0) : S4096x1024.Idx → EReal) (ix2 (⟨(i 0).val, idx2_lt0 i⟩ : Fin 4096) k))
    (fun k => (m ((c.tc : Thread nD τ).loc main_arg1) : S4096x1024.Idx → EReal) (ix2 (⟨(i 0).val, idx2_lt0 i⟩ : Fin 4096) k))
    ((m ((c.tc : Thread nD τ).loc main_arg2) : S4096x1024.Idx → EReal) i)
    (fun k j => Wx m c (ix2 k j)) (fun k j => Wh m c (ix2 k j)) (fun j => Bv m c (ix1 j)) ⟨(i 1).val, idx2_lt1 i⟩

/-- The new cell values as a whole array: at `i`, the specification's value of row `i 0` at column `i 1`. -/
def cellOut (m : (ℓ : Loc nD τ sig) → Buf (Elt Ideal) ℓ) (c : Dev nD) : S4096x1024.Idx → EReal := fun i =>
  Cert.CellSpec.cellNext
    (fun k => (m ((c.tc : Thread nD τ).loc main_arg0) : S4096x1024.Idx → EReal) (ix2 (⟨(i 0).val, idx2_lt0 i⟩ : Fin 4096) k))
    (fun k => (m ((c.tc : Thread nD τ).loc main_arg1) : S4096x1024.Idx → EReal) (ix2 (⟨(i 0).val, idx2_lt0 i⟩ : Fin 4096) k))
    ((m ((c.tc : Thread nD τ).loc main_arg2) : S4096x1024.Idx → EReal) i)
    (fun k j => Wx m c (ix2 k j)) (fun k j => Wh m c (ix2 k j)) (fun j => Bv m c (ix1 j)) ⟨(i 1).val, idx2_lt1 i⟩

/-- Every index of a 4096-by-1024 array is the pair of its two coordinates, each read as a number below its extent. -/
theorem idx_eq (i : S4096x1024.Idx) :
    i = ix2 (⟨(i 0).val, idx2_lt0 i⟩ : Fin 4096) (⟨(i 1).val, idx2_lt1 i⟩ : Fin 1024) := by
  funext d; match d with | ⟨0, _⟩ => rfl | ⟨1, _⟩ => rfl

/-- The composed new hidden values over the launch memory's arrays are the array `hiddenOut`. -/
theorem hiddenTerm_eq_out (m : (ℓ : Loc nD τ sig) → Buf (Elt Ideal) ℓ) (c : Dev nD) :
    hiddenTerm (m ((c.tc : Thread nD τ).loc main_arg0)) (m ((c.tc : Thread nD τ).loc main_arg1)) (m ((c.tc : Thread nD τ).loc main_arg2)) (Wx m c) (Wh m c) (Bv m c)
      = hiddenOut m c := by
  funext i
  have key := hiddenTerm_apply (m ((c.tc : Thread nD τ).loc main_arg0)) (m ((c.tc : Thread nD τ).loc main_arg1)) (m ((c.tc : Thread nD τ).loc main_arg2)) (Wx m c) (Wh m c) (Bv m c)
    ⟨(i 0).val, idx2_lt0 i⟩ ⟨(i 1).val, idx2_lt1 i⟩
  rw [← idx_eq i] at key
  exact key

/-- The composed new cell values over the launch memory's arrays are the array `cellOut`. -/
theorem cellTerm_eq_out (m : (ℓ : Loc nD τ sig) → Buf (Elt Ideal) ℓ) (c : Dev nD) :
    cellTerm (m ((c.tc : Thread nD τ).loc main_arg0)) (m ((c.tc : Thread nD τ).loc main_arg1)) (m ((c.tc : Thread nD τ).loc main_arg2)) (Wx m c) (Wh m c) (Bv m c)
      = cellOut m c := by
  funext i
  have key := cellTerm_apply (m ((c.tc : Thread nD τ).loc main_arg0)) (m ((c.tc : Thread nD τ).loc main_arg1)) (m ((c.tc : Thread nD τ).loc main_arg2)) (Wx m c) (Wh m c) (Bv m c)
    ⟨(i 0).val, idx2_lt0 i⟩ ⟨(i 1).val, idx2_lt1 i⟩
  rw [← idx_eq i] at key
  exact key

/-- The run's term for the new hidden values is the composition `hiddenTerm` of the launch memory's arrays: the two
    are the same expression, operation for operation. -/
theorem res_hidden (m : (ℓ : Loc nD τ sig) → Buf (Elt Ideal) ℓ) (c : Dev nD) :
    Value.res_main_v36 (F := Ideal) m c
      = hiddenTerm (m ((c.tc : Thread nD τ).loc main_arg0)) (m ((c.tc : Thread nD τ).loc main_arg1)) (m ((c.tc : Thread nD τ).loc main_arg2)) (Wx m c) (Wh m c) (Bv m c) := rfl

/-- The run's term for the new cell values is the composition `cellTerm` of the launch memory's arrays. -/
theorem res_cell (m : (ℓ : Loc nD τ sig) → Buf (Elt Ideal) ℓ) (c : Dev nD) :
    Value.res_main_v34 (F := Ideal) m c
      = cellTerm (m ((c.tc : Thread nD τ).loc main_arg0)) (m ((c.tc : Thread nD τ).loc main_arg1)) (m ((c.tc : Thread nD τ).loc main_arg2)) (Wx m c) (Wh m c) (Bv m c) := rfl

/-- On every device, from any memory with zero counters: every weakly fair execution of the reference program
    terminates with the new hidden values and the new cell values of one step of the cell, and its arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      (r.2.mem ((c.tc : Thread nD τ).loc main_v36) = hiddenOut m c ∧ r.2.mem ((c.tc : Thread nD τ).loc main_v34) = cellOut m c)
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)
        ∧ r.2.mem ((c.tc : Thread nD τ).loc main_arg4) = m ((c.tc : Thread nD τ).loc main_arg4)
        ∧ r.2.mem ((c.tc : Thread nD τ).loc main_arg5) = m ((c.tc : Thread nD τ).loc main_arg5)
        ∧ r.2.mem ((c.tc : Thread nD τ).loc main_arg6) = m ((c.tc : Thread nD τ).loc main_arg6)
        ∧ r.2.mem ((c.tc : Thread nD τ).loc main_arg7) = m ((c.tc : Thread nD τ).loc main_arg7)
        ∧ r.2.mem ((c.tc : Thread nD τ).loc main_arg8) = m ((c.tc : Thread nD τ).loc main_arg8)
        ∧ r.2.mem ((c.tc : Thread nD τ).loc main_arg9) = m ((c.tc : Thread nD τ).loc main_arg9)
        ∧ r.2.mem ((c.tc : Thread nD τ).loc main_arg10) = m ((c.tc : Thread nD τ).loc main_arg10)
        ∧ r.2.mem ((c.tc : Thread nD τ).loc main_arg11) = m ((c.tc : Thread nD τ).loc main_arg11)
        ∧ r.2.mem ((c.tc : Thread nD τ).loc main_arg12) = m ((c.tc : Thread nD τ).loc main_arg12)
        ∧ r.2.mem ((c.tc : Thread nD τ).loc main_arg13) = m ((c.tc : Thread nD τ).loc main_arg13)
        ∧ r.2.mem ((c.tc : Thread nD τ).loc main_arg14) = m ((c.tc : Thread nD τ).loc main_arg14)) :=
  (θ_run defs _ _).mono (fun _ h c =>
    ⟨⟨(h c).1.trans ((res_hidden m c).trans (hiddenTerm_eq_out m c)),
      (h c).2.1.trans ((res_cell m c).trans (cellTerm_eq_out m c))⟩, (h c).2.2⟩)
    (Value.run (F := Ideal) m ρ)

end Cert.ReferenceIdeal.RefValue

end
-- ==== Proof.lean ====
/-
  The certificate of a fused long short-term memory step against its plain reference.

  The kernel takes 4096 batch rows in sixteen blocks of 256. For each block it multiplies the inputs and the hidden
  states (rounded to bf16, which is the identity in exact arithmetic) by the four gates' weight matrices laid side
  by side, adds the two products and the bias row, cuts the 4096 columns into the forget, input, candidate and
  output gates, and forms  new cell = σ(f) · cell + σ(i) · tanh(n)  and  new hidden = σ(o) · tanh(new cell).
  The reference does the same on whole arrays, spelling σ x as 1 / (1 + e^(-x)).

  In exact arithmetic on the extended reals both programs compute, at batch row r and column q, the same value:
  the same two sums over the 1024 contracted coordinates (a matrix product into a zero accumulator and the host's
  product are both that plain sum), added in the same order to the same bias entry, through the same σ and tanh.
  No sum is regrouped, nothing is distributed or cancelled, so the equality holds for every extended-real input and
  the precondition that the inputs are finite is not used.

  * The three frames: each program runs to the end, faults nowhere and leaves its argument arrays as launched.
    For the two kernel programs this is the run of the region point by point after the six host lines that lay
    out the weights and the bias; for the reference it is its run with the results dropped.
  * The idealized kernel is the kernel's own text read in exact arithmetic: nothing was rewritten, so there is
    nothing to preserve.
  * The two idealized programs end with equal results: each result array is the specification's array of the launch
    memory (kernel: block by block, the blocks tiling the arrays; reference: entry by entry), and the two launch
    memories agree on the arguments.
-/
import proofs.«126626_j29686813950554_2_alg».proof.Defs
import proofs.«126626_j29686813950554_2_alg».proof.Proof.Gen.Kernel
import proofs.«126626_j29686813950554_2_alg».proof.Proof.Gen.KernelIdeal
import proofs.«126626_j29686813950554_2_alg».proof.Proof.Gen.ReferenceIdeal
import proofs.«126626_j29686813950554_2_alg».proof.Proof.Gen.Pre_finite_inputs
import proofs.«126626_j29686813950554_2_alg».proof.Proof.BodyBits
import proofs.«126626_j29686813950554_2_alg».proof.Proof.CellValue
import proofs.«126626_j29686813950554_2_alg».proof.Proof.RefValue
import Idealize.ShloMosaic.Adequacy
import Idealize.ShloMosaic.Init

noncomputable section

namespace Cert.Proof

open Idealize.ShloMosaic Idealize.SL.Sem

/-- The word-level kernel runs to the end and leaves its arguments as launched. -/
theorem frame_k : Cert.frame_Kernel := fun m ρ _ => Cert.Kernel.Body.frame m ρ

/-- So does the kernel read in exact arithmetic. -/
theorem frame_ki : Cert.frame_KernelIdeal := fun m ρ _ => Cert.KernelIdeal.Body.frame m ρ

/-- The reference's frame is its run with the results dropped. -/
theorem frame_ri : Cert.frame_ReferenceIdeal := fun m ρ _ =>
  (θ_run Cert.ReferenceIdeal.defs _ _).mono (fun _ h c => (h c).2) (Cert.ReferenceIdeal.RefValue.run m ρ)

/-- Nothing was rewritten on the way to exact arithmetic. -/
theorem preserves : Cert.preserves_Kernel_KernelIdeal := trivial

/-- From launch memories that agree on the fifteen arguments, the reference's new hidden array is the kernel's:
    both are the specification's array, of the same rows, weights and bias. -/
theorem hidden_agree (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (hagree : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) :
    Cert.ReferenceIdeal.RefValue.hiddenOut m' c = Cert.KernelIdeal.CellValue.hiddenOut m c := by
  obtain ⟨h0, h1, h2, h3, h4, h5, h6, h7, h8, h9, h10, h11, h12, h13, h14⟩ := hagree
  funext i
  simp only [Cert.ReferenceIdeal.RefValue.hiddenOut, Cert.ReferenceIdeal.RefValue.Wx, Cert.ReferenceIdeal.RefValue.Wh, Cert.ReferenceIdeal.RefValue.Bv,
    Cert.KernelIdeal.CellValue.hiddenOut, Cert.KernelIdeal.EntryValues.Wx, Cert.KernelIdeal.EntryValues.Wh, Cert.KernelIdeal.EntryValues.Bv]
  rw [h0, h1, h2, h3, h4, h5, h6, h7, h8, h9, h10, h11, h12, h13, h14]

/-- The same for the new cell array. -/
theorem cell_agree (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (hagree : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) :
    Cert.ReferenceIdeal.RefValue.cellOut m' c = Cert.KernelIdeal.CellValue.cellOut m c := by
  obtain ⟨h0, h1, h2, h3, h4, h5, h6, h7, h8, h9, h10, h11, h12, h13, h14⟩ := hagree
  funext i
  simp only [Cert.ReferenceIdeal.RefValue.cellOut, Cert.ReferenceIdeal.RefValue.Wx, Cert.ReferenceIdeal.RefValue.Wh, Cert.ReferenceIdeal.RefValue.Bv,
    Cert.KernelIdeal.CellValue.cellOut, Cert.KernelIdeal.EntryValues.Wx, Cert.KernelIdeal.EntryValues.Wh, Cert.KernelIdeal.EntryValues.Bv]
  rw [h0, h1, h2, h3, h4, h5, h6, h7, h8, h9, h10, h11, h12, h13, h14]

/-- In exact arithmetic the kernel and the reference, run from memories that agree on the arguments, both end, with
    the new hidden and new cell arrays equal entry by entry and the arguments unchanged. -/
theorem algebraic : Cert.algebraic_KernelIdeal_ReferenceIdeal := by
  intro m ρ m' ρ' _ hagree
  refine ⟨fun c => Cert.KernelIdeal.CellValue.hiddenOut m c, fun c => Cert.KernelIdeal.CellValue.cellOut m c, ?_, ?_⟩
  · exact (θ_run Cert.KernelIdeal.defs _ _).mono (fun _ h c => ⟨(h c).1.1, (h c).1.2, (h c).2⟩) (Cert.KernelIdeal.CellValue.run m ρ)
  · exact (θ_run Cert.ReferenceIdeal.defs _ _).mono (fun _ h c => ⟨(h c).1.1.trans (hidden_agree m m' c (hagree c)),
      (h c).1.2.trans (cell_agree m m' c (hagree c)), (h c).2⟩) (Cert.ReferenceIdeal.RefValue.run m' ρ')

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
